-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x12x36x2048 : Shape := ⟨4, ![64, 12, 36, 2048]⟩
abbrev S64x12x1024 : Shape := ⟨3, ![64, 12, 1024]⟩
abbrev S1024x3072 : Shape := ⟨2, ![1024, 3072]⟩
abbrev S_ : Shape := ⟨0, ![]⟩
abbrev S1024 : Shape := ⟨1, ![1024]⟩
abbrev S1x1024 : Shape := ⟨2, ![1, 1024]⟩
abbrev S1 : Shape := ⟨1, ![1]⟩

class Facts : Prop where
  bcast_S_S64x12x36x2048 : S_.BroadcastsInDim S64x12x36x2048 (![] : Fin 0 → Fin S64x12x36x2048.rank)
  reducesTo_S64x12x36x2048_S_d0_1_2_3 : S64x12x36x2048.ReducesTo [0, 1, 2, 3] S_
  h_S_ : 0 < S_.numel
  bcast_S_S64x12x1024 : S_.BroadcastsInDim S64x12x1024 (![] : Fin 0 → Fin S64x12x1024.rank)
  reducesTo_S64x12x1024_S_d0_1_2 : S64x12x1024.ReducesTo [0, 1, 2] S_
  bcast_S_S1024x3072 : S_.BroadcastsInDim S1024x3072 (![] : Fin 0 → Fin S1024x3072.rank)
  reducesTo_S1024x3072_S_d0_1 : S1024x3072.ReducesTo [0, 1] S_
  reducesTo_S_S_d : S_.ReducesTo [] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_v31 : IVec S_ 1) (main_v32 : FVec F S1 .f32) (main_cst_12 : FVec F S_ .f32) : IVec S_ 1 :=
  let main_v33 : FVec F S1 .f32 := broadcastInDim S1 ![] bcast_S_S1 main_cst_12
  let main_v34 : IVec S1 1 := cmpf .olt main_v32 main_v33
  let main_c_13 : IVec S_ 1 := constantI S_ 1 1#1
  let main_v35 : IVec S_ 1 := (fun x v => Host.reduce IntOp.andi x v reducesTo_S1_S_d0 h_S_) main_v34 main_c_13
  let main_v36 : IVec S_ 1 := andi main_v31 main_v35
  main_v36

def fn_part1 {F : FTy → Type} [FloatOps F] (main_arg4 : FVec F S1024 .f32) (main_arg5 : FVec F S1x1024 .f32) (main_arg6 : FVec F S_ .f32) (main_arg7 : FVec F S1 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S1024 .f32 := Host.absf main_arg4
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v17 main_v21
  let main_v23 : FVec F S1x1024 .f32 := Host.absf main_arg5
  let main_cst_8 : FVec F S_ .f32 := constant S_ .f32 0x7F800000#32
  let main_v24 : FVec F S1x1024 .f32 := broadcastInDim S1x1024 ![] bcast_S_S1x1024 main_cst_8
  let main_v25 : IVec S1x1024 1 := cmpf .olt main_v23 main_v24
  let main_c_9 : IVec S_ 1 := constantI S_ 1 1#1
  let main_v26 : IVec S_ 1 := (fun x v => Host.reduce IntOp.andi x v reducesTo_S1x1024_S_d0_1 h_S_) main_v25 main_c_9
  let main_v27 : IVec S_ 1 := andi main_v22 main_v26
  let main_v28 : FVec F S_ .f32 := Host.absf main_arg6
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S1 .f32 := Host.absf main_arg7
  let main_cst_12 : FVec F S_ .f32 := constant S_ .f32 0x7F800000#32
  fn_part2 (F := F) main_v31 main_v32 main_cst_12

def fn {F : FTy → Type} [FloatOps F] (main_arg0 : FVec F S64x12x36x2048 .f32) (main_arg1 : FVec F S64x12x1024 .f32) (main_arg2 : FVec F S1024x3072 .f32) (main_arg3 : FVec F S_ .f32) (main_arg4 : FVec F S1024 .f32) (main_arg5 : FVec F S1x1024 .f32) (main_arg6 : FVec F S_ .f32) (main_arg7 : FVec F S1 .f32) : IVec S_ 1 :=
  let main_v0 : FVec F S64x12x36x2048 .f32 := Host.absf main_arg0
  let main_cst : FVec F S_ .f32 := constant S_ .f32 0x7F800000#32
  let main_v1 : FVec F S64x12x36x2048 .f32 := broadcastInDim S64x12x36x2048 ![] bcast_S_S64x12x36x2048 main_cst
  let main_v2 : IVec S64x12x36x2048 1 := cmpf .olt main_v0 main_v1
  let main_c : IVec S_ 1 := constantI S_ 1 1#1
  let main_v3 : IVec S_ 1 := (fun x v => Host.reduce IntOp.andi x v reducesTo_S64x12x36x2048_S_d0_1_2_3 h_S_) main_v2 main_c
  let main_v4 : FVec F S64x12x1024 .f32 := Host.absf main_arg1
  let main_cst_0 : FVec F S_ .f32 := constant S_ .f32 0x7F800000#32
  let main_v5 : FVec F S64x12x1024 .f32 := broadcastInDim S64x12x1024 ![] bcast_S_S64x12x1024 main_cst_0
  let main_v6 : IVec S64x12x1024 1 := cmpf .olt main_v4 main_v5
  let main_c_1 : IVec S_ 1 := constantI S_ 1 1#1
  let main_v7 : IVec S_ 1 := (fun x v => Host.reduce IntOp.andi x v reducesTo_S64x12x1024_S_d0_1_2 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_arg7 main_v13 main_v15 main_c_5
-- ==== Kernel.lean ====
abbrev S64x12x36x2048 : Shape := ⟨4, ![64, 12, 36, 2048]⟩
abbrev S64x12x1024 : Shape := ⟨3, ![64, 12, 1024]⟩
abbrev S1024x3072 : Shape := ⟨2, ![1024, 3072]⟩
abbrev S_ : Shape := ⟨0, ![]⟩
abbrev S1024 : Shape := ⟨1, ![1024]⟩
abbrev S1x1024 : Shape := ⟨2, ![1, 1024]⟩
abbrev S1 : Shape := ⟨1, ![1]⟩
abbrev S1024x2048 : Shape := ⟨2, ![1024, 2048]⟩
abbrev S1024x1024 : Shape := ⟨2, ![1024, 1024]⟩
abbrev S2048x1024 : Shape := ⟨2, ![2048, 1024]⟩
abbrev S1x1 : Shape := ⟨2, ![1, 1]⟩
abbrev S64x12x36x1 : Shape := ⟨4, ![64, 12, 36, 1]⟩
abbrev S8x12x8x2048 : Shape := ⟨4, ![8, 12, 8, 2048]⟩
abbrev S8x12x1024 : Shape := ⟨3, ![8, 12, 1024]⟩
abbrev S8x12x8x1 : Shape := ⟨4, ![8, 12, 8, 1]⟩
abbrev S768x2048 : Shape := ⟨2, ![768, 2048]⟩
abbrev S768x1024 : Shape := ⟨2, ![768, 1024]⟩
abbrev S8x12x8x1024 : Shape := ⟨4, ![8, 12, 8, 1024]⟩
abbrev S1x12x1024 : Shape := ⟨3, ![1, 12, 1024]⟩
abbrev S12x1024 : Shape := ⟨2, ![12, 1024]⟩
abbrev S1x1x1x1024 : Shape := ⟨4, ![1, 1, 1, 1024]⟩
abbrev S8x12x1x1024 : Shape := ⟨4, ![8, 12, 1, 1024]⟩
abbrev S8x12x8 : Shape := ⟨3, ![8, 12, 8]⟩
abbrev S64x36x1 : Shape := ⟨3, ![64, 36, 1]⟩
abbrev S64x1x36x1 : Shape := ⟨4, ![64, 1, 36, 1]⟩

abbrev nBuf : Space → Nat
  | .hbm => 47
  | .vmem => 11
  | .smem => 0
  | _ => 0

abbrev bufTy : (tb : Table) → Fin (tcTables nBuf tb) → BufTy
  | .hbm, ⟨0, _⟩ => ⟨S64x12x36x2048, .f32⟩
  | .hbm, ⟨1, _⟩ => ⟨S64x12x1024, .f32⟩
  | .hbm, ⟨2, _⟩ => ⟨S1024x3072, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S1, .f32⟩
  | .hbm, ⟨8, _⟩ => ⟨S1024x3072, .f32⟩
  | .hbm, ⟨9, _⟩ => ⟨S1024x3072, .f32⟩
  | .hbm, ⟨10, _⟩ => ⟨S1024x3072, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x3072, .f32⟩
  | .hbm, ⟨15, _⟩ => ⟨S1024x3072, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1024x2048, .f32⟩
  | .hbm, ⟨25, _⟩ => ⟨S1024x1024, .f32⟩
  | .hbm, ⟨26, _⟩ => ⟨S2048x1024, .f32⟩
  | .hbm, ⟨27, _⟩ => ⟨S2048x1024, .bf16⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S1x1, .f32⟩
  | .hbm, ⟨32, _⟩ => ⟨S64x12x36x1, .f32⟩
  | .hbm, ⟨33, _⟩ => ⟨S_, .f32⟩
  | .hbm, ⟨34, _⟩ => ⟨S64x36x1, .f32⟩
  | .hbm, ⟨35, _⟩ => ⟨S_, .f32⟩
  | .hbm, ⟨36, _⟩ => ⟨S64x36x1, .f32⟩
  | .hbm, ⟨37, _⟩ => ⟨S64x36x1, .f32⟩
  | .hbm, ⟨38, _⟩ => ⟨S64x1x36x1, .f32⟩
  | .hbm, ⟨39, _⟩ => ⟨S64x12x36x1, .f32⟩
  | .hbm, ⟨40, _⟩ => ⟨S64x12x36x1, .f32⟩
  | .hbm, ⟨41, _⟩ => ⟨S64x12x36x1, .f32⟩
  | .hbm, ⟨42, _⟩ => ⟨S_, .f32⟩
  | .hbm, ⟨43, _⟩ => ⟨S64x36x1, .f32⟩
  | .hbm, ⟨44, _⟩ => ⟨S64x1x36x1, .f32⟩
  | .hbm, ⟨45, _⟩ => ⟨S64x12x36x1, .f32⟩
  | .hbm, ⟨46, _⟩ => ⟨S64x12x36x1, .f32⟩
  | .local _ .vmem, ⟨0, _⟩ => ⟨S8x12x8x2048, .f32⟩
  | .local _ .vmem, ⟨1, _⟩ => ⟨S8x12x8x2048, .f32⟩
  | .local _ .vmem, ⟨2, _⟩ => ⟨S8x12x1024, .f32⟩
  | .local _ .vmem, ⟨3, _⟩ => ⟨S8x12x1024, .f32⟩
  | .local _ .vmem, ⟨4, _⟩ => ⟨S2048x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S8x12x8x1, .f32⟩
  | .local _ .vmem, ⟨10, _⟩ => ⟨S8x12x8x1, .f32⟩
  | _, _ => ⟨S64x12x36x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S8x12x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x12x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x12x8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S1024x3072 : S_.BroadcastsInDim S1024x3072 (![] : Fin 0 → Fin S1024x3072.rank)
  reducesTo_S1024x3072_S_d0_1 : S1024x3072.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1024x3072_S1024x2048_0_0 : S1024x3072.Slices ![0, 0] S1024x2048
  slices_S1024x3072_S1024x1024_0_2048 : S1024x3072.Slices ![0, 2048] S1024x1024
  transposes_S1024x2048_S2048x1024_1_0 : S1024x2048.Transposes [1, 0] S2048x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  shapeCasts_S1_S1x1 : S1.ShapeCasts S1x1
  inb_S8x12x8x2048_S8x12x8x2048_0_0_0_0 : ∀ a, (![0, 0, 0, 0] : Fin 4 → Nat) a + S8x12x8x2048.size a ≤ S8x12x8x2048.size a
  h_S8x12x8x2048 : 0 < S8x12x8x2048.numel
  shapeCasts_S8x12x8x2048_S768x2048 : S8x12x8x2048.ShapeCasts S768x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S768x1024_S8x12x8x1024 : S768x1024.ShapeCasts S8x12x8x1024
  inb_S8x12x1024_S1x12x1024_0_0_0 : ∀ a, (![0, 0, 0] : Fin 3 → Nat) a + S1x12x1024.size a ≤ S8x12x1024.size a
  h_S1x12x1024 : 0 < S1x12x1024.numel
  shapeCasts_S1x12x1024_S12x1024 : S1x12x1024.ShapeCasts S12x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S8x12x1024_S1x12x1024_1_0_0 : ∀ a, (![1, 0, 0] : Fin 3 → Nat) a + S1x12x1024.size a ≤ S8x12x1024.size a
  inb_S8x12x1024_S1x12x1024_2_0_0 : ∀ a, (![2, 0, 0] : Fin 3 → Nat) a + S1x12x1024.size a ≤ S8x12x1024.size a
  inb_S8x12x1024_S1x12x1024_3_0_0 : ∀ a, (![3, 0, 0] : Fin 3 → Nat) a + S1x12x1024.size a ≤ S8x12x1024.size a
  inb_S8x12x1024_S1x12x1024_4_0_0 : ∀ a, (![4, 0, 0] : Fin 3 → Nat) a + S1x12x1024.size a ≤ S8x12x1024.size a
  inb_S8x12x1024_S1x12x1024_5_0_0 : ∀ a, (![5, 0, 0] : Fin 3 → Nat) a + S1x12x1024.size a ≤ S8x12x1024.size a
  inb_S8x12x1024_S1x12x1024_6_0_0 : ∀ a, (![6, 0, 0] : Fin 3 → Nat) a + S1x12x1024.size a ≤ S8x12x1024.size a
  inb_S8x12x1024_S1x12x1024_7_0_0 : ∀ a, (![7, 0, 0] : Fin 3 → Nat) a + S1x12x1024.size a ≤ S8x12x1024.size a
  shapeCasts_S12x1024_S1x12x1024 : S12x1024.ShapeCasts S1x12x1024
  concatenates_S1x12x1024_S1x12x1024_S1x12x1024_S1x12x1024_S1x12x1024_S1x12x1024_S1x12x1024_S1x12x1024_S8x12x1024_d0 : Shape.Concatenates [S1x12x1024, S1x12x1024, S1x12x1024, S1x12x1024, S1x12x1024, S1x12x1024, S1x12x1024, S1x12x1024] S8x12x1024 0
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1x1024 : S1x1024.ShapeCasts S1x1x1x1024
  shapeCasts_S8x12x1024_S8x12x1x1024 : S8x12x1024.ShapeCasts S8x12x1x1024
  broadcasts_S8x12x1x1024_S8x12x8x1024 : S8x12x1x1024.Broadcasts S8x12x8x1024
  broadcasts_S1x1x1x1024_S8x12x8x1024 : S1x1x1x1024.Broadcasts S8x12x8x1024
  reduces_S8x12x8x1024_S8x12x8 : S8x12x8x1024.Reduces [3] S8x12x8
  shapeCasts_S8x12x8_S8x12x8x1 : S8x12x8.ShapeCasts S8x12x8x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S8x12x8x1_S8x12x8x1_0_0_0_0 : ∀ a, (![0, 0, 0, 0] : Fin 4 → Nat) a + S8x12x8x1.size a ≤ S8x12x8x1.size a
  h_S8x12x8x1 : 0 < S8x12x8x1.numel
  reducesTo_S64x12x36x1_S64x36x1_d1 : S64x12x36x1.ReducesTo [1] S64x36x1
  bcast_S_S64x36x1 : S_.BroadcastsInDim S64x36x1 (![] : Fin 0 → Fin S64x36x1.rank)
  bcast_S64x36x1_S64x1x36x1_0_2_3 : S64x36x1.BroadcastsInDim S64x1x36x1 (![0, 2, 3] : Fin 3 → Fin S64x1x36x1.rank)
  bcast_S64x1x36x1_S64x12x36x1_0_1_2_3 : S64x1x36x1.BroadcastsInDim S64x12x36x1 (![0, 1, 2, 3] : Fin 4 → Fin S64x12x36x1.rank)
  dot_S768x2048_S2048x1024_S768x1024_1_0_0_1_n_n_wf : DotDims.WF S768x2048 S2048x1024 S768x1024 [1] [0] [0] [1] [] []
  dot_S12x1024_S1024x1024_S12x1024_1_0_0_1_n_n_wf : DotDims.WF S12x1024 S1024x1024 S12x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x12x8x2048.size a < S64x12x36x2048.size a
  hwx0_0 : ∀ i : grid0.Coords, EltTy.bits .f32 = 32 ∨ (Rect.unit (s := S64x12x36x2048) (fun a => cc0_transform_0 i a * S8x12x8x2048.size a) (fun a => (Pipeline.Clip.of (cc0_transform_0 i a) (S8x12x8x2048.size a) (S64x12x36x2048.size a)).extent (S8x12x8x2048.size a)) fun a => Pipeline.Clip.inb (Pipeline.Clip.ok_of (hstart0_0 i a))).WholeWords (EltTy.packing .f32)
  hwxs0_0 : ∀ i : grid0.Coords, EltTy.bits .f32 = 32 ∨ (Rect.unit (s := S8x12x8x2048) (fun _ => 0) (fun a => (Pipeline.Clip.of (cc0_transform_0 i a) (S8x12x8x2048.size a) (S64x12x36x2048.size a)).extent (S8x12x8x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x12x1024.size a ≤ S64x12x1024.size a
  hwx0_1 : ∀ i : grid0.Coords, EltTy.bits .f32 = 32 ∨ (Rect.block (s := S64x12x1024) S8x12x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S8x12x8x1.size a < S64x12x36x1.size a
  hwx0_7 : ∀ i : grid0.Coords, EltTy.bits .f32 = 32 ∨ (Rect.unit (s := S64x12x36x1) (fun a => cc0_transform_7 i a * S8x12x8x1.size a) (fun a => (Pipeline.Clip.of (cc0_transform_7 i a) (S8x12x8x1.size a) (S64x12x36x1.size a)).extent (S8x12x8x1.size a)) fun a => Pipeline.Clip.inb (Pipeline.Clip.ok_of (hstart0_7 i a))).WholeWords (EltTy.packing .f32)
  hwxs0_7 : ∀ i : grid0.Coords, EltTy.bits .f32 = 32 ∨ (Rect.unit (s := S8x12x8x1) (fun _ => 0) (fun a => (Pipeline.Clip.of (cc0_transform_7 i a) (S8x12x8x1.size a) (S64x12x36x1.size a)).extent (S8x12x8x1.size a)) fun a => (Nat.zero_add _).trans_le (Pipeline.Clip.extent_le (Pipeline.Clip.ok_of (hstart0_7 i a)))).WholeWords (EltTy.packing .f32)

variable [Facts₀]

def dot_S768x2048_S2048x1024_S768x1024_1_0_0_1_n_n : DotDims S768x2048 S2048x1024 S768x1024 where
  lhsContracting := [1]
  rhsContracting := [0]
  lhsNonContracting := [0]
  rhsNonContracting := [1]
  lhsBatch := []
  rhsBatch := []
  wf := dot_S768x2048_S2048x1024_S768x1024_1_0_0_1_n_n_wf
def dot_S12x1024_S1024x1024_S12x1024_1_0_0_1_n_n : DotDims S12x1024 S1024x1024 S12x1024 where
  lhsContracting := [1]
  rhsContracting := [0]
  lhsNonContracting := [0]
  rhsNonContracting := [1]
  lhsBatch := []
  rhsBatch := []
  wf := dot_S12x1024_S1024x1024_S12x1024_1_0_0_1_n_n_wf

abbrev win0_0 : Pipeline.Window sig grid0 :=
  Pipeline.Window.ofSpecClip (Memref.whole main_arg0) S8x12x8x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S8x12x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_v18) S8x12x8x1.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x12x36x2048 : Shape := ⟨4, ![64, 12, 36, 2048]⟩
abbrev S64x12x1024 : Shape := ⟨3, ![64, 12, 1024]⟩
abbrev S1024x3072 : Shape := ⟨2, ![1024, 3072]⟩
abbrev S_ : Shape := ⟨0, ![]⟩
abbrev S1024 : Shape := ⟨1, ![1024]⟩
abbrev S1x1024 : Shape := ⟨2, ![1, 1024]⟩
abbrev S1 : Shape := ⟨1, ![1]⟩
abbrev S1024x2048 : Shape := ⟨2, ![1024, 2048]⟩
abbrev S1024x1024 : Shape := ⟨2, ![1024, 1024]⟩
abbrev S64x12x36x1024 : Shape := ⟨4, ![64, 12, 36, 1024]⟩
abbrev S64x12x1x1024 : Shape := ⟨4, ![64, 12, 1, 1024]⟩
abbrev S1x1x1x1024 : Shape := ⟨4, ![1, 1, 1, 1024]⟩
abbrev S64x12x36x1 : Shape := ⟨4, ![64, 12, 36, 1]⟩
abbrev S1x1x1x1 : Shape := ⟨4, ![1, 1, 1, 1]⟩
abbrev S64x36x1 : Shape := ⟨3, ![64, 36, 1]⟩
abbrev S64x1x36x1 : Shape := ⟨4, ![64, 1, 36, 1]⟩

abbrev nBuf : Space → Nat
  | .hbm => 55
  | .vmem => 0
  | .smem => 0
  | _ => 0

abbrev bufTy : (tb : Table) → Fin (tcTables nBuf tb) → BufTy
  | .hbm, ⟨0, _⟩ => ⟨S64x12x36x2048, .f32⟩
  | .hbm, ⟨1, _⟩ => ⟨S64x12x1024, .f32⟩
  | .hbm, ⟨2, _⟩ => ⟨S1024x3072, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S_, .f32⟩
  | .hbm, ⟨7, _⟩ => ⟨S1, .f32⟩
  | .hbm, ⟨8, _⟩ => ⟨S1024x3072, .f32⟩
  | .hbm, ⟨9, _⟩ => ⟨S1024x3072, .f32⟩
  | .hbm, ⟨10, _⟩ => ⟨S1024x3072, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x3072, .f32⟩
  | .hbm, ⟨15, _⟩ => ⟨S1024x3072, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1024x2048, .f32⟩
  | .hbm, ⟨25, _⟩ => ⟨S1024x1024, .f32⟩
  | .hbm, ⟨26, _⟩ => ⟨S64x12x36x1024, .f32⟩
  | .hbm, ⟨27, _⟩ => ⟨S64x12x1024, .f32⟩
  | .hbm, ⟨28, _⟩ => ⟨S64x12x1x1024, .f32⟩
  | .hbm, ⟨29, _⟩ => ⟨S64x12x36x1024, .f32⟩
  | .hbm, ⟨30, _⟩ => ⟨S64x12x36x1024, .f32⟩
  | .hbm, ⟨31, _⟩ => ⟨S1x1x1x1024, .f32⟩
  | .hbm, ⟨32, _⟩ => ⟨S64x12x36x1024, .f32⟩
  | .hbm, ⟨33, _⟩ => ⟨S64x12x36x1024, .f32⟩
  | .hbm, ⟨34, _⟩ => ⟨S_, .f32⟩
  | .hbm, ⟨35, _⟩ => ⟨S64x12x36x1024, .f32⟩
  | .hbm, ⟨36, _⟩ => ⟨S64x12x36x1024, .f32⟩
  | .hbm, ⟨37, _⟩ => ⟨S64x12x36x1, .f32⟩
  | .hbm, ⟨38, _⟩ => ⟨S1x1x1x1, .f32⟩
  | .hbm, ⟨39, _⟩ => ⟨S64x12x36x1, .f32⟩
  | .hbm, ⟨40, _⟩ => ⟨S64x12x36x1, .f32⟩
  | .hbm, ⟨41, _⟩ => ⟨S_, .f32⟩
  | .hbm, ⟨42, _⟩ => ⟨S64x36x1, .f32⟩
  | .hbm, ⟨43, _⟩ => ⟨S_, .f32⟩
  | .hbm, ⟨44, _⟩ => ⟨S64x36x1, .f32⟩
  | .hbm, ⟨45, _⟩ => ⟨S64x36x1, .f32⟩
  | .hbm, ⟨46, _⟩ => ⟨S64x1x36x1, .f32⟩
  | .hbm, ⟨47, _⟩ => ⟨S64x12x36x1, .f32⟩
  | .hbm, ⟨48, _⟩ => ⟨S64x12x36x1, .f32⟩
  | .hbm, ⟨49, _⟩ => ⟨S64x12x36x1, .f32⟩
  | .hbm, ⟨50, _⟩ => ⟨S_, .f32⟩
  | .hbm, ⟨51, _⟩ => ⟨S64x36x1, .f32⟩
  | .hbm, ⟨52, _⟩ => ⟨S64x1x36x1, .f32⟩
  | .hbm, ⟨53, _⟩ => ⟨S64x12x36x1, .f32⟩
  | .hbm, ⟨54, _⟩ => ⟨S64x12x36x1, .f32⟩
  | _, _ => ⟨S64x12x36x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_cst : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S_S1024x3072 : S_.BroadcastsInDim S1024x3072 (![] : Fin 0 → Fin S1024x3072.rank)
  reducesTo_S1024x3072_S_d0_1 : S1024x3072.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1024x3072_S1024x2048_0_0 : S1024x3072.Slices ![0, 0] S1024x2048
  slices_S1024x3072_S1024x1024_0_2048 : S1024x3072.Slices ![0, 2048] S1024x1024
  bcast_S64x12x1024_S64x12x1x1024_0_1_3 : S64x12x1024.BroadcastsInDim S64x12x1x1024 (![0, 1, 3] : Fin 3 → Fin S64x12x1x1024.rank)
  bcast_S64x12x1x1024_S64x12x36x1024_0_1_2_3 : S64x12x1x1024.BroadcastsInDim S64x12x36x1024 (![0, 1, 2, 3] : Fin 4 → Fin S64x12x36x1024.rank)
  bcast_S1024_S1x1x1x1024_3 : S1024.BroadcastsInDim S1x1x1x1024 (![3] : Fin 1 → Fin S1x1x1x1024.rank)
  bcast_S1x1x1x1024_S64x12x36x1024_0_1_2_3 : S1x1x1x1024.BroadcastsInDim S64x12x36x1024 (![0, 1, 2, 3] : Fin 4 → Fin S64x12x36x1024.rank)
  bcast_S_S64x12x36x1024 : S_.BroadcastsInDim S64x12x36x1024 (![] : Fin 0 → Fin S64x12x36x1024.rank)
  bcast_S1_S1x1x1x1_3 : S1.BroadcastsInDim S1x1x1x1 (![3] : Fin 1 → Fin S1x1x1x1.rank)
  bcast_S1x1x1x1_S64x12x36x1_0_1_2_3 : S1x1x1x1.BroadcastsInDim S64x12x36x1 (![0, 1, 2, 3] : Fin 4 → Fin S64x12x36x1.rank)
  reducesTo_S64x12x36x1_S64x36x1_d1 : S64x12x36x1.ReducesTo [1] S64x36x1
  bcast_S_S64x36x1 : S_.BroadcastsInDim S64x36x1 (![] : Fin 0 → Fin S64x36x1.rank)
  bcast_S64x36x1_S64x1x36x1_0_2_3 : S64x36x1.BroadcastsInDim S64x1x36x1 (![0, 2, 3] : Fin 3 → Fin S64x1x36x1.rank)
  bcast_S64x1x36x1_S64x12x36x1_0_1_2_3 : S64x1x36x1.BroadcastsInDim S64x12x36x1 (![0, 1, 2, 3] : Fin 4 → Fin S64x12x36x1.rank)
  dot_S64x12x36x2048_S1024x2048_S64x12x36x1024_3_1_012_0_n_n_wf : DotDims.WF S64x12x36x2048 S1024x2048 S64x12x36x1024 [3] [1] [0, 1, 2] [0] [] []
  dot_S64x12x1024_S1024x1024_S64x12x1024_2_1_01_0_n_n_wf : DotDims.WF S64x12x1024 S1024x1024 S64x12x1024 [2] [1] [0, 1] [0] [] []
  dot_S64x12x36x1024_S1x1024_S64x12x36x1_3_1_012_0_n_n_wf : DotDims.WF S64x12x36x1024 S1x1024 S64x12x36x1 [3] [1] [0, 1, 2] [0] [] []

variable [Facts₀]

def dot_S64x12x36x2048_S1024x2048_S64x12x36x1024_3_1_012_0_n_n : DotDims S64x12x36x2048 S1024x2048 S64x12x36x1024 where
  lhsContracting := [3]
  rhsContracting := [1]
  lhsNonContracting := [0, 1, 2]
  rhsNonContracting := [0]
  lhsBatch := []
  rhsBatch := []
  wf := dot_S64x12x36x2048_S1024x2048_S64x12x36x1024_3_1_012_0_n_n_wf
def dot_S64x12x1024_S1024x1024_S64x12x1024_2_1_01_0_n_n : DotDims S64x12x1024 S1024x1024 S64x12x1024 where
  lhsContracting := [2]
  rhsContracting := [1]
  lhsNonContracting := [0, 1]
  rhsNonContracting := [0]
  lhsBatch := []
  rhsBatch := []
  wf := dot_S64x12x1024_S1024x1024_S64x12x1024_2_1_01_0_n_n_wf
def dot_S64x12x36x1024_S1x1024_S64x12x36x1_3_1_012_0_n_n : DotDims S64x12x36x1024 S1x1024 S64x12x36x1 where
  lhsContracting := [3]
  rhsContracting := [1]
  lhsNonContracting := [0, 1, 2]
  rhsNonContracting := [0]
  lhsBatch := []
  rhsBatch := []
  wf := dot_S64x12x36x1024_S1x1024_S64x12x36x1_3_1_012_0_n_n_wf

class Facts : Prop extends Facts₀ where

variable [Facts]
-- ==== Proof.KFrame.lean ====
/- The FRAME of the word-level program `Cert.Kernel`: every weakly fair run of @main on the TensorCores terminates
   and leaves the eight argument arrays as launched.

   The proof data FORGETS every window of the one pipeline. At the last grid column the blocks of window 0 (an
   input) and of window 7 (the output) reach past the end of their arrays, so the tail of window 0's staging
   buffer holds words nothing names; the body's matrix products mix every row of that buffer, so at word level
   what the body leaves in window 7's buffer on the rows inside the array cannot be named apart from those unnamed
   words. The frame claims nothing of any buffer's contents: it needs only that the body RUNS from every window's
   current buffer at SOME contents and hands each back at SOME contents, that no input array is ever written, and
   that the arrays no window stages are written neither by the region nor by the host lines around it. -/
import proofs.«164039_j46926812676148_1_alg».proof.Proof.Gen.Kernel.Skeleton
import proofs.«164039_j46926812676148_1_alg».proof.Proof.Gen.Kernel.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 1000000 in
/-- The kernel body on whole staging memrefs, each at SOME contents, runs to the continuation holding each at SOME
    contents: it only loads through literal rectangles of the memrefs it is given and stores once, a whole
    rectangle, into the last; it has no loop, no branch and no check, so nothing of the values read matters. -/
theorem sound_kernel (c : Dev nD) (E : Set ℕ) (i : grid0.Coords)
    (arg2 : Memref sig .tc .vmem S8x12x8x2048 .f32) (harg2 : arg2.IsWhole)
    (arg3 : Memref sig .tc .vmem S8x12x1024 .f32) (harg3 : arg3.IsWhole)
    (arg4 : Memref sig .tc .vmem S2048x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1 .f32) (harg8 : arg8.IsWhole)
    (arg9 : Memref sig .tc .vmem S8x12x8x1 .f32) (harg9 : arg9.IsWhole)
    (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E
          (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  sl_exec
  sl_step
  iapply Hk
  isplitl [H2]
  · iexists _; iexists _; isplitr
    swap; · iexact H2
    ipureintro; rfl
  isplitl [H3]
  · iexists _; iexists _; isplitr
    swap; · iexact H3
    ipureintro; rfl
  isplitl [H4]
  · iexists _; iexists _; isplitr
    swap; · iexact H4
    ipureintro; rfl
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

/-! ## The pipeline's proof data -/

/-- EVERY window is forgotten: nothing of any staging buffer's contents is named. -/
def forgets0 : Fin 8 → Bool := fun _ => true

/-- The proof data of the one pipeline on core `c`: the arrays as the region finds them; after the body every
    window's buffer at contents the proof does not name; the invariant the scoped rest and the generator register,
    which the body neither reads nor writes; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## The body obligation, at a generic point -/

/-- What the body is called with at point `t`: the invariant, the core's debts, each window's current staging buffer at
    some contents, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X))

/-- and what it returns: the same, each buffer again at some contents. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X) ∗ (∃ X, owns (c : Thread nD τ) (st0_1 t) fullShare X)
    ∗ (∃ X, owns (c : Thread nD τ) (st0_2 t) fullShare X) ∗ (∃ X, owns (c : Thread nD τ) (st0_3 t) fullShare X)
    ∗ (∃ X, owns (c : Thread nD τ) (st0_4 t) fullShare X) ∗ (∃ X, owns (c : Thread nD τ) (st0_5 t) fullShare X)
    ∗ (∃ X, owns (c : Thread nD τ) (st0_6 t) fullShare X) ∗ (∃ X, owns (c : Thread nD τ) (st0_7 t) fullShare X))

/-- The body at any point: `sound_kernel` applies to the eight current staging memrefs; the invariant and the core's
    debts, the same before and after every point, pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7⟩
  iapply (sound_kernel c Set.univ (grid0.coords t) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation at every point, every window forgotten. -/
theorem body_obligation (c : Dev nD) : BodyObligation (dats (F := F) m 0 c) (defs₀ (F := F)) Variants.none () Set.univ forgets0 := fun t => by
  rw [bigSep_W0, bigSep_W0]
  exact sound_body m c t

/-! ## The run and the frame -/

/-- The buffers the host lines after the region write: each line's own result, fourteen in all. -/
def T : Finset (Ref sig .tc) :=
  {main_cst, main_v19, main_cst_0, main_v20, main_v21, main_v22, main_v23, main_v24, main_v25, main_cst_1,
    main_v26, main_v27, main_v28, main_v29}

set_option maxHeartbeats 400000 in
/-- Every buffer a host line after the region writes is one of those: each line writes only its own result buffer
    (core references are injective in the buffer). -/
theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals
    intro b hb
    simp only [StableHlo.nullary_writes, StableHlo.unary_writes, StableHlo.binary_writes, Finset.mem_singleton] at hb
    rw [Proc.devRef_injective _ hb]
    decide

set_option backward.isDefEq.respectTransparency.types false in
/-- At the compiled mesh, for any values, from any memory with zero counters: every weakly fair execution of @main on the
    TensorCores terminates, and every final state has every array of the pipeline at SOME contents it may hold after the
    write-backs — an input's array, never written back, at its region-entry contents — and every other unscoped
    buffer the later host lines do not write at its region-entry contents. -/
theorem run_main : θ_run defs (onTc (τ := τ) (main (F := F))) (s₀ m ρ)
    (Pipeline.RDat.FramePostR (cfgs 0) (fun c => (dats m 0 c).toRForget forgets0) T (fun c b => V0 m c (Proc.devRef .tc b))) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME. `main_arg0` and `main_arg1` are the arrays of input windows 0 and 1: never written back, they end at
    their region-entry contents, which no host line before the region wrote. `main_arg2` … `main_arg7` are staged
    by no window and written by no host line after the region: they end at their region-entry contents, likewise as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  have hrest : ∀ (r : PUnit × MemSt nD τ sig (Elt F)) (h : Pipeline.RDat.FramePostR (cfgs 0) (fun c => (dats m 0 c).toRForget forgets0) T (fun c b => V0 m c (Proc.devRef .tc b)) r)
      (c : Dev nD) (b : Ref sig .tc), b.isScoped = false → (∀ w, (spec0 w).arr.view.ref ≠ b) → b ∉ T →
      r.2.mem ((c.tc : Thread nD τ).loc b) = V m c b := fun r h c b hs ha hT =>
    (h c).2 b (Finset.mem_sdiff.mpr ⟨Pipeline.mem_restRefs_of b hs ha, hT⟩)
  have hin : ∀ (r : PUnit × MemSt nD τ sig (Elt F)) (h : Pipeline.RDat.FramePostR (cfgs 0) (fun c => (dats m 0 c).toRForget forgets0) T (fun c b => V0 m c (Proc.devRef .tc b)) r)
      (c : Dev nD) (w : Fin cfg0.W), (cfg0.win w).isOut = false →
      r.2.mem ((cfg0.spec w).arr.view.loc (c.tc : Thread nD τ)) = V m c (Pipeline.arrRef spec0 w) := fun r h c w hw => by
    have := (h c).1 w
    rw [((dats m 0 c).toRForget forgets0).ArrAt_in w hw] at this
    exact this.trans (A_eq m c w)
  (θ_run defs _ _).mono (fun r h c =>
    ⟨(hin r h c 0 rfl).trans (V_main_arg0 m c),
      (hin r h c 1 rfl).trans (V_main_arg1 m c),
      (hrest r h c main_arg2 (by decide) (by decide) (by decide)).trans (V_main_arg2 m c),
      (hrest r h c main_arg3 (by decide) (by decide) (by decide)).trans (V_main_arg3 m c),
      (hrest r h c main_arg4 (by decide) (by decide) (by decide)).trans (V_main_arg4 m c),
      (hrest r h c main_arg5 (by decide) (by decide) (by decide)).trans (V_main_arg5 m c),
      (hrest r h c main_arg6 (by decide) (by decide) (by decide)).trans (V_main_arg6 m c),
      (hrest r h c main_arg7 (by decide) (by decide) (by decide)).trans (V_main_arg7 m c)⟩) (run_main m ρ)

end Cert.Kernel.Hand

end
-- ==== Proof.IBody.lean ====
/-
  The idealized kernel's body as a function of its input buffers: the value it stores into the output's buffer
  (`logitsBlock`, the body's arithmetic over what its loads read), what that buffer holds afterwards (`outBuf`), and
  the body's run on whole staging buffers: it reads the seven input buffers through fixed rectangles, computes, and
  stores once, covering the output's buffer; the inputs' buffers are left as they were.
-/
import proofs.«164039_j46926812676148_1_alg».proof.Proof.Gen.KernelIdeal.Frame
import proofs.«164039_j46926812676148_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

abbrev rv : Rect S8x12x8x2048 := Rect.unit (s := S8x12x8x2048) ![0, 0, 0, 0] S8x12x8x2048.size inb_S8x12x8x2048_S8x12x8x2048_0_0_0_0
abbrev rwv : Rect S2048x1024 := Rect.unit (s := S2048x1024) ![0, 0] S2048x1024.size inb_S2048x1024_S2048x1024_0_0
abbrev rwq : Rect S1024x1024 := Rect.unit (s := S1024x1024) ![0, 0] S1024x1024.size inb_S1024x1024_S1024x1024_0_0
abbrev rq0 : Rect S8x12x1024 := Rect.unit (s := S8x12x1024) ![0, 0, 0] S1x12x1024.size inb_S8x12x1024_S1x12x1024_0_0_0
abbrev rq1 : Rect S8x12x1024 := Rect.unit (s := S8x12x1024) ![1, 0, 0] S1x12x1024.size inb_S8x12x1024_S1x12x1024_1_0_0
abbrev rq2 : Rect S8x12x1024 := Rect.unit (s := S8x12x1024) ![2, 0, 0] S1x12x1024.size inb_S8x12x1024_S1x12x1024_2_0_0
abbrev rq3 : Rect S8x12x1024 := Rect.unit (s := S8x12x1024) ![3, 0, 0] S1x12x1024.size inb_S8x12x1024_S1x12x1024_3_0_0
abbrev rq4 : Rect S8x12x1024 := Rect.unit (s := S8x12x1024) ![4, 0, 0] S1x12x1024.size inb_S8x12x1024_S1x12x1024_4_0_0
abbrev rq5 : Rect S8x12x1024 := Rect.unit (s := S8x12x1024) ![5, 0, 0] S1x12x1024.size inb_S8x12x1024_S1x12x1024_5_0_0
abbrev rq6 : Rect S8x12x1024 := Rect.unit (s := S8x12x1024) ![6, 0, 0] S1x12x1024.size inb_S8x12x1024_S1x12x1024_6_0_0
abbrev rq7 : Rect S8x12x1024 := Rect.unit (s := S8x12x1024) ![7, 0, 0] S1x12x1024.size inb_S8x12x1024_S1x12x1024_7_0_0
abbrev rrow : Rect S1x1024 := Rect.unit (s := S1x1024) ![0, 0] S1x1024.size inb_S1x1024_S1x1024_0_0
abbrev rone : Rect S1x1 := Rect.unit (s := S1x1) ![0, 0] S1x1.size inb_S1x1_S1x1_0_0
abbrev rout : Rect S8x12x8x1 := Rect.unit (s := S8x12x8x1) ![0, 0, 0, 0] S8x12x8x1.size inb_S8x12x8x1_S8x12x8x1_0_0_0_0

/-- What the body stores into the output buffer, as a function of the seven input buffers' contents: the
    eight per-batch products of the q block with the q weights stacked, added to the product of the flattened
    v block with the v weights and to the bias row, clamped below at zero, weighted by the output row, summed
    along the hidden axis, and shifted by the output bias. -/
def logitsBlock (x0 : Vec F S8x12x8x2048 .f32) (x1 : Vec F S8x12x1024 .f32) (x2 : Vec F S2048x1024 .bf16)
    (x3 : Vec F S1024x1024 .bf16) (x4 x5 : Vec F S1x1024 .f32) (x6 : Vec F S1x1 .f32) : Vec F S8x12x8x1 .f32 :=
  k0_pay1 (k0_pay2 (View.ld x0 rv) (View.ld x2 rwv))
    (k0_pay7 (k0_pay3 (View.ld x1 rq0) (View.ld x3 rwq)))
    (k0_pay8 (k0_pay4 (View.ld x1 rq1) (View.ld x3 rwq)))
    (k0_pay9 (k0_pay5 (View.ld x1 rq2) (View.ld x3 rwq)))
    (k0_pay10 (k0_pay6 (View.ld x1 rq3)) (View.ld x3 rwq))
    (k0_pay11 (View.ld x1 rq4) (View.ld x3 rwq))
    (k0_pay12 (View.ld x1 rq5) (View.ld x3 rwq))
    (k0_pay13 (View.ld x1 rq6) (View.ld x3 rwq))
    (k0_pay14 (View.ld x1 rq7) (View.ld x3 rwq))
    (View.ld x4 rrow) (View.ld x5 rrow) (View.ld x6 rone)

/-- The output buffer after the body: its one store, which writes the whole buffer. -/
def outBuf (x0 : Vec F S8x12x8x2048 .f32) (x1 : Vec F S8x12x1024 .f32) (x2 : Vec F S2048x1024 .bf16)
    (x3 : Vec F S1024x1024 .bf16) (x4 x5 : Vec F S1x1024 .f32) (x6 : Vec F S1x1 .f32) : Vec F S8x12x8x1 .f32 :=
  View.canon [⟨rout, logitsBlock x0 x1 x2 x3 x4 x5 x6⟩]

/-- The one store covers the output buffer. -/
theorem cover_out (p0 : Vec F S8x12x8x1 .f32) (y : S8x12x8x1.Idx) :
    ∃ pc ∈ ([⟨rout, p0⟩] : List (View.Piece (Elt F) S8x12x8x1 .f32)), y ∈ pc.1.set :=
  View.cover_of_tiled [⟨rout, p0⟩] S8x12x8x1.size (by rfl) y

set_option maxHeartbeats 4000000 in
/-- The body on whole staging buffers holding `x0 … x6` (the output's holding anything) runs to the end
    leaving the inputs as they were and the output's buffer at `outBuf` of them. -/
theorem sound_kernel (c : Dev nD) (E : Set ℕ) (i : grid0.Coords)
    (arg2 : Memref sig .tc .vmem S8x12x8x2048 .f32) (harg2 : arg2.IsWhole) (arg3 : Memref sig .tc .vmem S8x12x1024 .f32) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1x1024 .f32) (harg7 : arg7.IsWhole)
    (arg8 : Memref sig .tc .vmem S1x1 .f32) (harg8 : arg8.IsWhole) (arg9 : Memref sig .tc .vmem S8x12x8x1 .f32) (harg9 : arg9.IsWhole)
    (x0 : Vec F S8x12x8x2048 .f32) (x1 : Vec F S8x12x1024 .f32) (x2 : Vec F S2048x1024 .bf16)
    (x3 : Vec F S1024x1024 .bf16) (x4 x5 : Vec F S1x1024 .f32) (x6 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (outBuf x0 x1 x2 x3 x4 x5 x6)) -∗ K ⟨⟩))
      ⊢ wp frame (wpE (defs₀ (F := F)) Variants.none c none) E
          (cc0__mlp_kernel i arg2 harg2 arg3 harg3 arg4 harg4 arg5 harg5 arg6 harg6 arg7 harg7 arg8 harg8 arg9 harg9) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.KernelIdeal.Hand

end
-- ==== Proof.Spec.lean ====
/-
  The specification both programs meet: the attention logits as one function of the inputs v and q, the normalised
  first-layer weights W (rows: hidden units; the first 2048 columns act on v, the last 1024 on q), the first bias,
  the normalised output weights and the output bias, on the extended reals.
-/
import Idealize.ShloMosaic.PureOps.Ideal
import Idealize.ShloMosaic.Lib.ValueIdx

noncomputable section

open scoped BigOperators

namespace Cert.Spec

open Idealize.ShloMosaic Idealize.ShloMosaic.ValueIdx

/-- Column `j` of the first 2048 columns of a 3072-column matrix. -/
def colV (j : Fin 2048) : Fin 3072 := ⟨j.val, by have := j.isLt; omega⟩
/-- Column `j` of the last 1024 columns of a 3072-column matrix. -/
def colQ (j : Fin 1024) : Fin 3072 := ⟨2048 + j.val, by have := j.isLt; omega⟩

/-- The attention logit of batch `b`, glimpse `k`, object `n`, on the extended reals: the hidden unit `h` sees
    `v[b,k,n,:] · W[h, :2048] + q[b,k,:] · W[h, 2048:] + b1[h]`, clamped below at zero; the logit is the hidden layer
    weighted by `w2[0, :]`, plus `b2[0]`. `W` is the first layer's (already normalised) weight matrix, `w2` the
    second's. -/
def logitAt (v : (⟨4, ![64, 12, 36, 2048]⟩ : Shape).Idx → EReal) (q : (⟨3, ![64, 12, 1024]⟩ : Shape).Idx → EReal)
    (W : (⟨2, ![1024, 3072]⟩ : Shape).Idx → EReal) (b1 : (⟨1, ![1024]⟩ : Shape).Idx → EReal)
    (w2 : (⟨2, ![1, 1024]⟩ : Shape).Idx → EReal) (b2 : (⟨1, ![1]⟩ : Shape).Idx → EReal)
    (b : Fin 64) (k : Fin 12) (n : Fin 36) : EReal :=
  (∑ h : Fin 1024,
      max (((∑ j : Fin 2048, v (ix4 b k n j) * W (ix2 h (colV j)))
            + (∑ j : Fin 1024, q (ix3 b k j) * W (ix2 h (colQ j)))) + b1 (ix1 h)) 0
        * w2 (ix2 (0 : Fin 1) h))
    + b2 (ix1 (0 : Fin 1))

/-- The logits as an array `[64, 12, 36, 1]`. -/
def logits (v : (⟨4, ![64, 12, 36, 2048]⟩ : Shape).Idx → EReal) (q : (⟨3, ![64, 12, 1024]⟩ : Shape).Idx → EReal)
    (W : (⟨2, ![1024, 3072]⟩ : Shape).Idx → EReal) (b1 : (⟨1, ![1024]⟩ : Shape).Idx → EReal)
    (w2 : (⟨2, ![1, 1024]⟩ : Shape).Idx → EReal) (b2 : (⟨1, ![1]⟩ : Shape).Idx → EReal) :
    (⟨4, ![64, 12, 36, 1]⟩ : Shape).Idx → EReal :=
  fun i => logitAt v q W b1 w2 b2 (i 0) (i 1) (i 2)

theorem logits_apply (v : (⟨4, ![64, 12, 36, 2048]⟩ : Shape).Idx → EReal) (q : (⟨3, ![64, 12, 1024]⟩ : Shape).Idx → EReal)
    (W : (⟨2, ![1024, 3072]⟩ : Shape).Idx → EReal) (b1 : (⟨1, ![1024]⟩ : Shape).Idx → EReal)
    (w2 : (⟨2, ![1, 1024]⟩ : Shape).Idx → EReal) (b2 : (⟨1, ![1]⟩ : Shape).Idx → EReal)
    (b : Fin 64) (k : Fin 12) (n : Fin 36) (o : Fin 1) :
    logits v q W b1 w2 b2 (ix4 b k n o) = logitAt v q W b1 w2 b2 b k n := rfl

end Cert.Spec

end
-- ==== Proof.IFrame.lean ====
/-
  The proof data of the idealized kernel's one pipeline. The grid is 8 × 5 points; at a point the v window stages a
  block of 8 batches × 12 glimpses × 8 objects × 2048 features and the output window a block of 8 × 12 × 8 × 1
  logits. The object axis has 36 entries, so at the last column of points both blocks reach four rows past their
  arrays: a transfer moves only the rows inside the array, and nothing is stated of the staging buffers' other rows.
  The data names, for every point, each input's buffer at its block of the array the region finds and the output's
  buffer at the block of the logits array `G` (both windows cut at the array's end stated on the rows inside it).
-/
import proofs.«164039_j46926812676148_1_alg».proof.Proof.IBody
import proofs.«164039_j46926812676148_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The logits as the region computes them, and the proof data -/

/-- The logits array as a function of the arrays the region finds: the two inputs, the normalised first-layer
    weights, the first bias, the normalised output weights and the output bias. -/
def G (c : Dev nD) : S64x12x36x1.Idx → Elt Ideal .f32 :=
  Cert.Spec.logits (V m c main_arg0) (V m c main_arg1) (V m c main_v4) (V m c main_arg4) (V m c main_v9) (V m c main_arg7)

/-- The part of the v block at point `t` that lies inside the array. -/
def vblk (c : Dev nD) (t : Fin cfg0.N) : (win0_0.xblock (grid0.coords t)).Idx → Elt Ideal .f32 :=
  (win0_0.blk t).view.read (Elt Ideal) (V m c main_arg0)
/-- The v block filled out to the staging buffer's shape by zeros past the array's end. -/
def vbuf (c : Dev nD) (t : Fin cfg0.N) : S8x12x8x2048.Idx → Elt Ideal .f32 :=
  win0_0.fill (grid0.coords t) (fun _ => (0 : EReal)) (vblk m c t)
/-- The part of the logits block at point `t` that lies inside the array. -/
def oblk (c : Dev nD) (t : Fin cfg0.N) : (win0_7.xblock (grid0.coords t)).Idx → Elt Ideal .f32 :=
  (win0_7.blk t).view.read (Elt Ideal) (G m c)
/-- The logits block filled out to the staging buffer's shape by zeros past the array's end. -/
def obuf (c : Dev nD) (t : Fin cfg0.N) : S8x12x8x1.Idx → Elt Ideal .f32 :=
  win0_7.fill (grid0.coords t) (fun _ => (0 : EReal)) (oblk m c t)

/-- The proof data: the arrays as the region finds them; after the body at point `t` each input's buffer at its
    block (the v block stated on the rows inside the array) and the output's at the logits' block (likewise). -/
def dats (_ : Fin 1) (c : Dev nD) : Dat τ (Elt Ideal) Unit ℕ (UR sig nD τ) ℕ cfg0 c where
  A w := V m c (Pipeline.arrRef spec0 w)
  after w t := match w with
    | ⟨0, _⟩ => vbuf m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => obuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = vbuf m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = obuf m c t := by dsimp only [dats]

/-- The v window is fetched at every point: its buffer holds the block on the rows inside the array and
    contents nothing names elsewhere. -/
theorem before_0 (c : Dev nD) (t : Fin cfg0.N) (d) :
    (dats m 0 c).before 0 t d = win0_0.fill (grid0.coords t) d (vblk m c t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

end Cert.KernelIdeal.Hand

end
-- ==== Proof.IHostPre.lean ====
/- What the host lines before the region leave in the arrays the windows stage, read at an index, in terms of the
   normalised first-layer weights; and the two normalised weight arrays as functions of the arguments. -/
import proofs.«164039_j46926812676148_1_alg».proof.Proof.IFrame
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.StableHlo
open scoped BigOperators

variable (m : (ℓ : Loc nD τ sig) → Buf (Elt Ideal) ℓ) (ρ : Dev nD → PrngReg)

/-! ## The normalised weights as functions of the arguments -/

/-- The first layer's weight matrix scaled by the gain and divided by its Frobenius norm: `g · W / ‖W‖`. -/
def W1n (x2 : FVec Ideal S1024x3072 .f32) (x3 : FVec Ideal S_ .f32) : FVec Ideal S1024x3072 .f32 :=
  Host.divf (F := Ideal) (mulf (broadcastInDim S1024x3072 ![] bcast_S_S1024x3072 x3) x2)
    (broadcastInDim S1024x3072 ![] bcast_S_S1024x3072
      (Host.sqrt (F := Ideal) (Host.reduceAdd (F := Ideal) (mulf x2 x2) (constant (F := Ideal) S_ .f32 0x00000000#32) reducesTo_S1024x3072_S_d0_1 h_S_)))

/-- The output layer's weight row scaled by its gain and divided by its norm. -/
def W2n (x5 : FVec Ideal S1x1024 .f32) (x6 : FVec Ideal S_ .f32) : FVec Ideal S1x1024 .f32 :=
  Host.divf (F := Ideal) (mulf (broadcastInDim S1x1024 ![] bcast_S_S1x1024 x6) x5)
    (broadcastInDim S1x1024 ![] bcast_S_S1x1024
      (Host.sqrt (F := Ideal) (Host.reduceAdd (F := Ideal) (mulf x5 x5) (constant (F := Ideal) S_ .f32 0x00000000#32) reducesTo_S1x1024_S_d0_1 h_S_)))

set_option maxHeartbeats 1000000 in
/-- The region finds the normalised first-layer weights in `main_v4`. -/
theorem V_v4 (c : Dev nD) : V m c main_v4 = W1n (m ((c : Thread nD τ).loc main_arg2)) (m ((c : Thread nD τ).loc main_arg3)) := by
  dsimp only [V, V0]
  simp only [hostOps0, hostOps0_1, hostOps0_2, hostOps0_3, hostOps0_4, List.flatten_cons, List.flatten_nil, List.append_nil, List.cons_append,
    List.nil_append]
  after_results
  rfl

set_option maxHeartbeats 1000000 in
/-- The region finds the normalised output weights in `main_v9`. -/
theorem V_v9 (c : Dev nD) : V m c main_v9 = W2n (m ((c : Thread nD τ).loc main_arg5)) (m ((c : Thread nD τ).loc main_arg6)) := by
  dsimp only [V, V0]
  simp only [hostOps0, hostOps0_1, hostOps0_2, hostOps0_3, hostOps0_4, List.flatten_cons, List.flatten_nil, List.append_nil, List.cons_append,
    List.nil_append]
  after_results
  rfl

/-! ## The staged weight arrays, as layout operations of the normalised weights -/

set_option maxHeartbeats 2000000 in
/-- `main_v13` is the first 2048 columns of the normalised weights, transposed (the change of float format is the
    identity on the extended reals). -/
theorem V_v13 (c : Dev nD) : (V m c main_v13 : S2048x1024.Idx → EReal)
    = truncf (F := Ideal) .bf16 (transpose S2048x1024 [1, 0] (extractStridedSlice S1024x2048 ![0, 0] (V m c main_v4) slices_S1024x3072_S1024x2048_0_0)
        transposes_S1024x2048_S2048x1024_1_0) bitsLt_bf16_f32 := by
  dsimp only [V, V0]
  simp only [hostOps0, hostOps0_1, hostOps0_2, hostOps0_3, hostOps0_4, List.flatten_cons, List.flatten_nil, List.append_nil, List.cons_append,
    List.nil_append]
  after_results

set_option maxHeartbeats 2000000 in
/-- `main_v15` is the last 1024 columns of the normalised weights, transposed. -/
theorem V_v15 (c : Dev nD) : (V m c main_v15 : S1024x1024.Idx → EReal)
    = truncf (F := Ideal) .bf16 (transpose S1024x1024 [1, 0] (extractStridedSlice S1024x1024 ![0, 2048] (V m c main_v4) slices_S1024x3072_S1024x1024_0_2048)
        transposes_S1024x1024_S1024x1024_1_0) bitsLt_bf16_f32 := by
  dsimp only [V, V0]
  simp only [hostOps0, hostOps0_1, hostOps0_2, hostOps0_3, hostOps0_4, List.flatten_cons, List.flatten_nil, List.append_nil, List.cons_append,
    List.nil_append]
  after_results

set_option maxHeartbeats 1000000 in
/-- `main_v16` is the first bias as a row. -/
theorem V_v16 (c : Dev nD) : (V m c main_v16 : S1x1024.Idx → EReal) = shapeCast S1x1024 (V m c main_arg4) shapeCasts_S1024_S1x1024 := by
  dsimp only [V, V0]
  simp only [hostOps0, hostOps0_1, hostOps0_2, hostOps0_3, hostOps0_4, List.flatten_cons, List.flatten_nil, List.append_nil, List.cons_append,
    List.nil_append]
  after_results
  rfl

set_option maxHeartbeats 1000000 in
/-- `main_v17` is the output bias as a one-by-one matrix. -/
theorem V_v17 (c : Dev nD) : (V m c main_v17 : S1x1.Idx → EReal) = shapeCast S1x1 (V m c main_arg7) shapeCasts_S1_S1x1 := by
  dsimp only [V, V0]
  simp only [hostOps0, hostOps0_1, hostOps0_2, hostOps0_3, hostOps0_4, List.flatten_cons, List.flatten_nil, List.append_nil, List.cons_append,
    List.nil_append]
  after_results
  rfl

/-! ## Read at an index -/

/-- Row `j`, column `h` of the staged v weights is row `h`, column `j` of the normalised weights. -/
theorem wv_apply (c : Dev nD) (j : Fin 2048) (h : Fin 1024) : V m c main_v13 (ix2 j h) = V m c main_v4 (ix2 h (Cert.Spec.colV j)) := by
  have e := congrFun (V_v13 m c) (ix2 j h)
  refine e.trans ?_
  rw [truncf_apply]
  refine (transpose_apply [1, 0] _ transposes_S1024x2048_S2048x1024_1_0 (ix2 j h) (ix2 h j) ?_).trans ?_
  · intro b; match b with
    | ⟨0, _⟩ => rfl
    | ⟨1, _⟩ => rfl
  refine extractStridedSlice_apply ![0, 0] _ slices_S1024x3072_S1024x2048_0_0 (ix2 h j) (ix2 h (Cert.Spec.colV j)) ?_
  intro a; match a with
  | ⟨0, _⟩ => show h.val = 0 + h.val; omega
  | ⟨1, _⟩ => show j.val = 0 + j.val; omega

/-- Row `j`, column `h` of the staged q weights is row `h`, column `2048 + j` of the normalised weights. -/
theorem wq_apply (c : Dev nD) (j : Fin 1024) (h : Fin 1024) : V m c main_v15 (ix2 j h) = V m c main_v4 (ix2 h (Cert.Spec.colQ j)) := by
  have e := congrFun (V_v15 m c) (ix2 j h)
  refine e.trans ?_
  rw [truncf_apply]
  refine (transpose_apply [1, 0] _ transposes_S1024x1024_S1024x1024_1_0 (ix2 j h) (ix2 h j) ?_).trans ?_
  · intro b; match b with
    | ⟨0, _⟩ => rfl
    | ⟨1, _⟩ => rfl
  refine extractStridedSlice_apply ![0, 2048] _ slices_S1024x3072_S1024x1024_0_2048 (ix2 h j) (ix2 h (Cert.Spec.colQ j)) ?_
  intro a; match a with
  | ⟨0, _⟩ => show h.val = 0 + h.val; omega
  | ⟨1, _⟩ => show 2048 + j.val = 2048 + j.val; rfl

/-- The bias row at column `h` is the first bias at `h`. -/
theorem b1_apply (c : Dev nD) (h : Fin 1024) : V m c main_v16 (ix2 (0 : Fin 1) h) = V m c main_arg4 (ix1 h) := by
  have e := congrFun (V_v16 m c) (ix2 (0 : Fin 1) h)
  refine e.trans ?_
  refine shapeCast_apply _ shapeCasts_S1024_S1x1024 (ix2 (0 : Fin 1) h) (ix1 h) ?_
  rw [Shape.rowMajor_val_one, Shape.rowMajor_val_two]
  show h.val = (0 : Fin 1).val * 1024 + h.val
  simp

/-- The one entry of the staged output bias is the output bias. -/
theorem b2_apply (c : Dev nD) : V m c main_v17 (ix2 (0 : Fin 1) (0 : Fin 1)) = V m c main_arg7 (ix1 (0 : Fin 1)) := by
  have e := congrFun (V_v17 m c) (ix2 (0 : Fin 1) (0 : Fin 1))
  refine e.trans ?_
  refine shapeCast_apply _ shapeCasts_S1_S1x1 (ix2 (0 : Fin 1) (0 : Fin 1)) (ix1 (0 : Fin 1)) ?_
  rw [Shape.rowMajor_val_one, Shape.rowMajor_val_two]
  rfl

end Cert.KernelIdeal.Hand

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.IPayload.lean ====
/-
  The value the idealized kernel body stores, read at an index, on the extended reals: entry (b, k, n) is the sum over
  the hidden axis h of max (v·Wv + q·Wq + bias, 0) at h times the output weight at h, plus the output bias, where
  v·Wv at h is the sum over j of x0 (b, k, n, j) * x2 (j, h) and q·Wq at h the sum over j of x1 (b, k, j) * x3 (j, h).
  Each layout operation moves a value without changing it, each format change is the identity, each product into a
  zero accumulator and the lane sum from a zero start are plain finite sums. Of the v block the entry reads only
  row (b, k, n, ·).
-/
import proofs.«164039_j46926812676148_1_alg».proof.Proof.IBody
import proofs.«164039_j46926812676148_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## The pieces: each operation of the body read at an index

Kept in a namespace of their own: only the assembled statement below is stated at the level of the body's definitions. -/

namespace Payload

/-- The four zero offsets, as the constant zero function. -/
theorem hz4 : (![0, 0, 0, 0] : Fin 4 → Nat) = fun _ => 0 := by funext a; fin_cases a <;> rfl
/-- The two zero offsets, as the constant zero function. -/
theorem hz2 : (![0, 0] : Fin 2 → Nat) = fun _ => 0 := by funext a; fin_cases a <;> rfl

/-- A load of the whole v block reads the block. -/
theorem ld_rv (x0 : Vec Ideal S8x12x8x2048 .f32) : View.ld x0 rv = x0 := View.ld_unit_zero hz4 _ x0
/-- A load of the whole v weight matrix reads the matrix. -/
theorem ld_rwv (x2 : Vec Ideal S2048x1024 .bf16) : View.ld x2 rwv = x2 := View.ld_unit_zero hz2 _ x2
/-- A load of the whole q weight matrix reads the matrix. -/
theorem ld_rwq (x3 : Vec Ideal S1024x1024 .bf16) : View.ld x3 rwq = x3 := View.ld_unit_zero hz2 _ x3
/-- A load of a whole [1, 1024] row reads the row. -/
theorem ld_rrow (x4 : Vec Ideal S1x1024 .f32) : View.ld x4 rrow = x4 := View.ld_unit_zero hz2 _ x4
/-- A load of the whole [1, 1] vector reads it. -/
theorem ld_rone (x6 : Vec Ideal S1x1 .f32) : View.ld x6 rone = x6 := View.ld_unit_zero hz2 _ x6

/-- The row of the flattened [768, ·] matrix that holds entry (b, k, n, ·) of the [8, 12, 8, ·] block. -/
def row (b : Fin 8) (k : Fin 12) (n : Fin 8) : Fin 768 := ⟨b.val * 96 + k.val * 8 + n.val, by omega⟩

/-- The [8, 12, 8, 2048] block flattened to [768, 2048] reads (b, k, n, j) at (row b k n, j):
    both sit at row-major position ((b * 12 + k) * 8 + n) * 2048 + j. -/
theorem cast_flat {α : Type} (x : S8x12x8x2048.Idx → α) (h : S8x12x8x2048.ShapeCasts S768x2048)
    (b : Fin 8) (k : Fin 12) (n : Fin 8) (j : Fin 2048) :
    shapeCast S768x2048 x h (ix2 (row b k n) j) = x (ix4 b k n j) :=
  shapeCast_apply x h _ _ (by
    rw [Shape.rowMajor_val_four, Shape.rowMajor_val_two]
    show ((b.val * 12 + k.val) * 8 + n.val) * 2048 + j.val = (b.val * 96 + k.val * 8 + n.val) * 2048 + j.val
    omega)

/-- A [768, 1024] matrix unflattened to [8, 12, 8, 1024] reads (row b k n, c) at (b, k, n, c). -/
theorem cast_unflat {α : Type} (y : S768x1024.Idx → α) (h : S768x1024.ShapeCasts S8x12x8x1024)
    (b : Fin 8) (k : Fin 12) (n : Fin 8) (c : Fin 1024) :
    shapeCast S8x12x8x1024 y h (ix4 b k n c) = y (ix2 (row b k n) c) :=
  shapeCast_apply y h _ _ (by
    rw [Shape.rowMajor_val_four, Shape.rowMajor_val_two]
    show (b.val * 96 + k.val * 8 + n.val) * 1024 + c.val = ((b.val * 12 + k.val) * 8 + n.val) * 1024 + c.val
    omega)

/-- The v product at (b, k, n, h): the sum over j of the v block's (b, k, n, j) entry times the v weights' (j, h)
    entry. The flattening, the change of format and the cast back leave the values where they were; the product
    into a zero accumulator is the plain 2048-term sum. -/
theorem pay2_apply (v0 : Vec Ideal S8x12x8x2048 .f32) (v3 : Vec Ideal S2048x1024 .bf16)
    (b : Fin 8) (k : Fin 12) (n : Fin 8) (h : Fin 1024) :
    k0_pay2 (F := Ideal) v0 v3 (ix4 b k n h) = ∑ j : Fin 2048, v0 (ix4 b k n j) * v3 (ix2 j h) := by
  unfold k0_pay2
  refine (cast_unflat _ _ b k n h).trans ?_
  show FloatOps.matmul (Cert.LibMatmulPlain.plainDims 768 2048 1024 _) none _ _
      (constant S768x1024 .f32 0x00000000#32) (ix2 (row b k n) h) = _
  refine (Cert.LibMatmulPlain.matmul_zero_apply _ none _ _ (row b k n) h).trans ?_
  refine Finset.sum_congr rfl fun j _ => ?_
  exact congrArg₂ (· * ·) (cast_flat _ _ b k n j) (congrFun (shapeCast_self v3 _) (ix2 j h))

/-- One q piece at (u, k, h): a [1, 12, 1024] slab with its unit axis dropped, multiplied by the [1024, 1024]
    weights into a zero accumulator and given its unit axis back, is the sum over j of the slab's (0, k, j) entry
    times the weights' (j, h) entry. -/
theorem qproj_apply (q : FVec Ideal S1x12x1024 .f32) (w : FVec Ideal S1024x1024 .bf16)
    (h1 : S1x12x1024.ShapeCasts S12x1024) (hb : FTy.bits .bf16 < FTy.bits .f32)
    (h2 : S1024x1024.ShapeCasts S1024x1024) (h3 : S12x1024.ShapeCasts S1x12x1024)
    (u : Fin 1) (k : Fin 12) (h : Fin 1024) :
    shapeCast S1x12x1024
        (matmul (F := Ideal) dot_S12x1024_S1024x1024_S12x1024_1_0_0_1_n_n none
          (truncf .bf16 (shapeCast S12x1024 q h1) hb) (shapeCast S1024x1024 w h2)
          (constant (F := Ideal) S12x1024 .f32 0x00000000#32)) h3 (ix3 u k h)
      = ∑ j : Fin 1024, q (ix3 (0 : Fin 1) k j) * w (ix2 j h) := by
  refine (shapeCast_ab_1ab_apply _ h3 u k h).trans ?_
  show FloatOps.matmul (Cert.LibMatmulPlain.plainDims 12 1024 1024 _) none _ _
      (constant S12x1024 .f32 0x00000000#32) (ix2 k h) = _
  refine (Cert.LibMatmulPlain.matmul_zero_apply _ none _ _ k h).trans ?_
  refine Finset.sum_congr rfl fun j _ => ?_
  exact congrArg₂ (· * ·) (shapeCast_1ab_ab_apply q h1 k j) (congrFun (shapeCast_self w h2) (ix2 j h))

/-- Piece 0 of the stack at (u, k, h) is that sum for its slab. -/
theorem piece0_apply (q : Vec Ideal S1x12x1024 .f32) (w : Vec Ideal S1024x1024 .bf16) (u : Fin 1) (k : Fin 12) (h : Fin 1024) :
    k0_pay7 (k0_pay3 (F := Ideal) q w) (ix3 u k h) = ∑ j : Fin 1024, q (ix3 (0 : Fin 1) k j) * w (ix2 j h) := by
  unfold k0_pay7 k0_pay3; exact qproj_apply q w _ _ _ _ u k h
/-- Piece 1 of the stack at (u, k, h) is that sum for its slab. -/
theorem piece1_apply (q : Vec Ideal S1x12x1024 .f32) (w : Vec Ideal S1024x1024 .bf16) (u : Fin 1) (k : Fin 12) (h : Fin 1024) :
    k0_pay8 (k0_pay4 (F := Ideal) q w) (ix3 u k h) = ∑ j : Fin 1024, q (ix3 (0 : Fin 1) k j) * w (ix2 j h) := by
  unfold k0_pay8 k0_pay4; exact qproj_apply q w _ _ _ _ u k h
/-- Piece 2 of the stack at (u, k, h) is that sum for its slab. -/
theorem piece2_apply (q : Vec Ideal S1x12x1024 .f32) (w : Vec Ideal S1024x1024 .bf16) (u : Fin 1) (k : Fin 12) (h : Fin 1024) :
    k0_pay9 (k0_pay5 (F := Ideal) q w) (ix3 u k h) = ∑ j : Fin 1024, q (ix3 (0 : Fin 1) k j) * w (ix2 j h) := by
  unfold k0_pay9 k0_pay5; exact qproj_apply q w _ _ _ _ u k h
/-- Piece 3 of the stack at (u, k, h) is that sum for its slab. -/
theorem piece3_apply (q : Vec Ideal S1x12x1024 .f32) (w : Vec Ideal S1024x1024 .bf16) (u : Fin 1) (k : Fin 12) (h : Fin 1024) :
    k0_pay10 (k0_pay6 (F := Ideal) q) w (ix3 u k h) = ∑ j : Fin 1024, q (ix3 (0 : Fin 1) k j) * w (ix2 j h) := by
  unfold k0_pay10 k0_pay6; exact qproj_apply q w _ _ _ _ u k h
/-- Piece 4 of the stack at (u, k, h) is that sum for its slab. -/
theorem piece4_apply (q : Vec Ideal S1x12x1024 .f32) (w : Vec Ideal S1024x1024 .bf16) (u : Fin 1) (k : Fin 12) (h : Fin 1024) :
    k0_pay11 (F := Ideal) q w (ix3 u k h) = ∑ j : Fin 1024, q (ix3 (0 : Fin 1) k j) * w (ix2 j h) := by
  unfold k0_pay11; exact qproj_apply q w _ _ _ _ u k h
/-- Piece 5 of the stack at (u, k, h) is that sum for its slab. -/
theorem piece5_apply (q : Vec Ideal S1x12x1024 .f32) (w : Vec Ideal S1024x1024 .bf16) (u : Fin 1) (k : Fin 12) (h : Fin 1024) :
    k0_pay12 (F := Ideal) q w (ix3 u k h) = ∑ j : Fin 1024, q (ix3 (0 : Fin 1) k j) * w (ix2 j h) := by
  unfold k0_pay12; exact qproj_apply q w _ _ _ _ u k h
/-- Piece 6 of the stack at (u, k, h) is that sum for its slab. -/
theorem piece6_apply (q : Vec Ideal S1x12x1024 .f32) (w : Vec Ideal S1024x1024 .bf16) (u : Fin 1) (k : Fin 12) (h : Fin 1024) :
    k0_pay13 (F := Ideal) q w (ix3 u k h) = ∑ j : Fin 1024, q (ix3 (0 : Fin 1) k j) * w (ix2 j h) := by
  unfold k0_pay13; exact qproj_apply q w _ _ _ _ u k h
/-- Piece 7 of the stack at (u, k, h) is that sum for its slab. -/
theorem piece7_apply (q : Vec Ideal S1x12x1024 .f32) (w : Vec Ideal S1024x1024 .bf16) (u : Fin 1) (k : Fin 12) (h : Fin 1024) :
    k0_pay14 (F := Ideal) q w (ix3 u k h) = ∑ j : Fin 1024, q (ix3 (0 : Fin 1) k j) * w (ix2 j h) := by
  unfold k0_pay14; exact qproj_apply q w _ _ _ _ u k h

/-- Slab c of the q block, read at (0, k, j), is the block's entry (c, k, j). -/
theorem ld_slab (x1 : Vec Ideal S8x12x1024 .f32) (o : Nat) (c : Fin 8) (hoc : o = c.val)
    (inb : ∀ a, (![o, 0, 0] : Fin 3 → Nat) a + S1x12x1024.size a ≤ S8x12x1024.size a)
    (u : Fin 1) (k : Fin 12) (j : Fin 1024) :
    View.ld x1 (Rect.unit (s := S8x12x1024) ![o, 0, 0] S1x12x1024.size inb) (ix3 u k j) = x1 (ix3 c k j) := by
  refine congrArg x1 (funext fun a => Fin.ext ?_)
  match a with
  | ⟨0, _⟩ => show o + 1 * u.val = c.val; omega
  | ⟨1, _⟩ => show 0 + 1 * k.val = k.val; omega
  | ⟨2, _⟩ => show 0 + 1 * j.val = j.val; omega

/-- The [8, 12, 1024] stack cast to [8, 12, 1, 1024] and repeated along the new axis reads (b, k, c) at (b, k, n, c). -/
theorem stack_bcast {α : Type} (y : S8x12x1024.Idx → α) (h1 : S8x12x1024.ShapeCasts S8x12x1x1024)
    (h2 : S8x12x1x1024.Broadcasts S8x12x8x1024) (b : Fin 8) (k : Fin 12) (n : Fin 8) (c : Fin 1024) :
    broadcastTo S8x12x8x1024 (shapeCast S8x12x1x1024 y h1) h2 (ix4 b k n c) = y (ix3 b k c) := by
  refine (broadcastTo_apply _ h2 (ix4 b k n c) (ix4 b k (0 : Fin 1) c) fun a => ?_).trans ?_
  · match a with
    | ⟨0, _⟩ => rfl
    | ⟨1, _⟩ => rfl
    | ⟨2, _⟩ => rfl
    | ⟨3, _⟩ => rfl
  · exact shapeCast_apply y h1 _ _ (by
      rw [Shape.rowMajor_val_three, Shape.rowMajor_val_four]
      show (b.val * 12 + k.val) * 1024 + c.val = ((b.val * 12 + k.val) * 1 + 0) * 1024 + c.val
      omega)

/-- A [1, 1024] row cast to [1, 1, 1, 1024] and repeated over the block reads (0, c) at (b, k, n, c). -/
theorem row_bcast {α : Type} (r : S1x1024.Idx → α) (h1 : S1x1024.ShapeCasts S1x1024)
    (h2 : S1x1024.ShapeCasts S1x1x1x1024) (h3 : S1x1x1x1024.Broadcasts S8x12x8x1024)
    (b : Fin 8) (k : Fin 12) (n : Fin 8) (c : Fin 1024) :
    broadcastTo S8x12x8x1024 (shapeCast S1x1x1x1024 (shapeCast S1x1024 r h1) h2) h3 (ix4 b k n c)
      = r (ix2 (0 : Fin 1) c) := by
  refine (broadcastTo_apply _ h3 (ix4 b k n c) (ix4 (0 : Fin 1) (0 : Fin 1) (0 : Fin 1) c) fun a => ?_).trans ?_
  · match a with
    | ⟨0, _⟩ => rfl
    | ⟨1, _⟩ => rfl
    | ⟨2, _⟩ => rfl
    | ⟨3, _⟩ => rfl
  · refine (shapeCast_apply _ h2 _ (ix2 (0 : Fin 1) c) (by
      rw [Shape.rowMajor_val_two, Shape.rowMajor_val_four]
      show 0 * 1024 + c.val = ((0 * 1 + 0) * 1 + 0) * 1024 + c.val
      omega)).trans ?_
    exact congrFun (shapeCast_self r h1) _

/-- The [8, 12, 8] sums cast to [8, 12, 8, 1] read (b, k, n) at (b, k, n, o). -/
theorem col_cast {α : Type} (y : S8x12x8.Idx → α) (h : S8x12x8.ShapeCasts S8x12x8x1)
    (b : Fin 8) (k : Fin 12) (n : Fin 8) (o : Fin 1) :
    shapeCast S8x12x8x1 y h (ix4 b k n o) = y (ix3 b k n) :=
  shapeCast_apply y h _ _ (by
    have ho : o.val = 0 := by omega
    rw [Shape.rowMajor_val_three, Shape.rowMajor_val_four]
    show (b.val * 12 + k.val) * 8 + n.val = ((b.val * 12 + k.val) * 8 + n.val) * 1 + o.val
    omega)

/-- The one entry of a [1, 1] vector. -/
theorem extract_one {α : Type} (x : S1x1.Idx → α) (h : ∀ a, (![0, 0] : Fin 2 → Nat) a < S1x1.size a) :
    extractAt ![0, 0] x h = x (ix2 (0 : Fin 1) (0 : Fin 1)) := by
  refine congrArg x (funext fun a => Fin.ext ?_)
  match a with
  | ⟨0, _⟩ => rfl
  | ⟨1, _⟩ => rfl

/-- The sum along the last axis of an [8, 12, 8, 1024] block, from a zero start, at (b, k, n). -/
theorem lane_sum (src : FVec Ideal S8x12x8x1024 .f32) (hr : S8x12x8x1024.Reduces [3] S8x12x8)
    (hφ : FKind.Formats .f32) (hacc : (0x00000000#32 : BitVec (FTy.bits .f32)) = FKind.add.neutral .f32 hφ)
    (b : Fin 8) (k : Fin 12) (n : Fin 8) :
    multiReduction (F := Ideal) .add [3] S8x12x8 src 0x00000000#32 hr hφ hacc (ix3 b k n)
      = ∑ c : Fin 1024, src (ix4 b k n c) := by
  refine (Ideal.multiReduction_add_single src _ hr hφ hacc (ix3 b k n)).trans ?_
  show ∑ c : Fin 1024, src (hr.lift (ix3 b k n) c) = _
  refine Finset.sum_congr rfl fun c _ => congrArg src (funext fun a => Fin.ext ?_)
  match a with
  | ⟨0, _⟩ => rfl
  | ⟨1, _⟩ => rfl
  | ⟨2, _⟩ => rfl
  | ⟨3, _⟩ => rfl

/-- The list of eight [1, 12, 1024] pieces, in order. -/
abbrev pieces8 {α : Type} (p0 p1 p2 p3 p4 p5 p6 p7 : S1x12x1024.Idx → α) : List ((s : Shape) × (s.Idx → α)) :=
  [⟨S1x12x1024, p0⟩, ⟨S1x12x1024, p1⟩, ⟨S1x12x1024, p2⟩, ⟨S1x12x1024, p3⟩,
    ⟨S1x12x1024, p4⟩, ⟨S1x12x1024, p5⟩, ⟨S1x12x1024, p6⟩, ⟨S1x12x1024, p7⟩]

/-- Eight [1, 12, 1024] pieces stacked along the first axis: entry (b, k, c) of the stack is piece b at (0, k, c). -/
theorem concat8_apply {α : Type} (p0 p1 p2 p3 p4 p5 p6 p7 : S1x12x1024.Idx → α)
    (hc : Shape.Concatenates [S1x12x1024, S1x12x1024, S1x12x1024, S1x12x1024, S1x12x1024, S1x12x1024, S1x12x1024, S1x12x1024] S8x12x1024 0)
    (b : Fin 8) (k : Fin 12) (c : Fin 1024) (G : Fin 8 → α)
    (h0 : p0 (ix3 (0 : Fin 1) k c) = G 0) (h1 : p1 (ix3 (0 : Fin 1) k c) = G 1)
    (h2 : p2 (ix3 (0 : Fin 1) k c) = G 2) (h3 : p3 (ix3 (0 : Fin 1) k c) = G 3)
    (h4 : p4 (ix3 (0 : Fin 1) k c) = G 4) (h5 : p5 (ix3 (0 : Fin 1) k c) = G 5)
    (h6 : p6 (ix3 (0 : Fin 1) k c) = G 6) (h7 : p7 (ix3 (0 : Fin 1) k c) = G 7) :
    concatenate S8x12x1024 0 [⟨S1x12x1024, p0⟩, ⟨S1x12x1024, p1⟩, ⟨S1x12x1024, p2⟩, ⟨S1x12x1024, p3⟩,
      ⟨S1x12x1024, p4⟩, ⟨S1x12x1024, p5⟩, ⟨S1x12x1024, p6⟩, ⟨S1x12x1024, p7⟩] hc (ix3 b k c) = G b := by
  have side : ∀ (i : Fin 8) (a : Fin S1x12x1024.rank),
      a.cast (rfl : S1x12x1024.rank = S8x12x1024.rank) ≠ (0 : Fin S8x12x1024.rank) →
      ((ix3 (0 : Fin 1) k c : S1x12x1024.Idx) a).val = ((ix3 i k c : S8x12x1024.Idx) (a.cast rfl)).val := by
    intro i a ha
    match a, ha with
    | ⟨0, _⟩, ha => exact absurd rfl ha
    | ⟨1, _⟩, _ => rfl
    | ⟨2, _⟩, _ => rfl
  fin_cases b
  · exact (concatenate_apply_piece (0 : Fin S8x12x1024.rank) (pieces8 p0 p1 p2 p3 p4 p5 p6 p7) hc _ 0 (by show (0 : Nat) < 8; omega) S1x12x1024 p0 rfl rfl 0 rfl (ix3 (0 : Fin 1) k c) (side _) rfl).trans h0
  · exact (concatenate_apply_piece (0 : Fin S8x12x1024.rank) (pieces8 p0 p1 p2 p3 p4 p5 p6 p7) hc _ 1 (by show (1 : Nat) < 8; omega) S1x12x1024 p1 rfl rfl 1 rfl (ix3 (0 : Fin 1) k c) (side _) rfl).trans h1
  · exact (concatenate_apply_piece (0 : Fin S8x12x1024.rank) (pieces8 p0 p1 p2 p3 p4 p5 p6 p7) hc _ 2 (by show (2 : Nat) < 8; omega) S1x12x1024 p2 rfl rfl 2 rfl (ix3 (0 : Fin 1) k c) (side _) rfl).trans h2
  · exact (concatenate_apply_piece (0 : Fin S8x12x1024.rank) (pieces8 p0 p1 p2 p3 p4 p5 p6 p7) hc _ 3 (by show (3 : Nat) < 8; omega) S1x12x1024 p3 rfl rfl 3 rfl (ix3 (0 : Fin 1) k c) (side _) rfl).trans h3
  · exact (concatenate_apply_piece (0 : Fin S8x12x1024.rank) (pieces8 p0 p1 p2 p3 p4 p5 p6 p7) hc _ 4 (by show (4 : Nat) < 8; omega) S1x12x1024 p4 rfl rfl 4 rfl (ix3 (0 : Fin 1) k c) (side _) rfl).trans h4
  · exact (concatenate_apply_piece (0 : Fin S8x12x1024.rank) (pieces8 p0 p1 p2 p3 p4 p5 p6 p7) hc _ 5 (by show (5 : Nat) < 8; omega) S1x12x1024 p5 rfl rfl 5 rfl (ix3 (0 : Fin 1) k c) (side _) rfl).trans h5
  · exact (concatenate_apply_piece (0 : Fin S8x12x1024.rank) (pieces8 p0 p1 p2 p3 p4 p5 p6 p7) hc _ 6 (by show (6 : Nat) < 8; omega) S1x12x1024 p6 rfl rfl 6 rfl (ix3 (0 : Fin 1) k c) (side _) rfl).trans h6
  · exact (concatenate_apply_piece (0 : Fin S8x12x1024.rank) (pieces8 p0 p1 p2 p3 p4 p5 p6 p7) hc _ 7 (by show (7 : Nat) < 8; omega) S1x12x1024 p7 rfl rfl 7 rfl (ix3 (0 : Fin 1) k c) (side _) rfl).trans h7

/-- What the body stores, at (b, k, n, o), in terms of what its operands read at the indices it touches: A c is the
    v product's entry (b, k, n, c) and G i c is piece i's entry (0, k, c). -/
theorem pay1_apply (v6 : FVec Ideal S8x12x8x1024 .f32) (p0 p1 p2 p3 p4 p5 p6 p7 : FVec Ideal S1x12x1024 .f32)
    (v64 v74 : Vec Ideal S1x1024 .f32) (v81 : Vec Ideal S1x1 .f32)
    (b : Fin 8) (k : Fin 12) (n : Fin 8) (o : Fin 1) (A : Fin 1024 → EReal) (G : Fin 8 → Fin 1024 → EReal)
    (hA : ∀ c, v6 (ix4 b k n c) = A c)
    (h0 : ∀ c, p0 (ix3 (0 : Fin 1) k c) = G 0 c) (h1 : ∀ c, p1 (ix3 (0 : Fin 1) k c) = G 1 c)
    (h2 : ∀ c, p2 (ix3 (0 : Fin 1) k c) = G 2 c) (h3 : ∀ c, p3 (ix3 (0 : Fin 1) k c) = G 3 c)
    (h4 : ∀ c, p4 (ix3 (0 : Fin 1) k c) = G 4 c) (h5 : ∀ c, p5 (ix3 (0 : Fin 1) k c) = G 5 c)
    (h6 : ∀ c, p6 (ix3 (0 : Fin 1) k c) = G 6 c) (h7 : ∀ c, p7 (ix3 (0 : Fin 1) k c) = G 7 c) :
    k0_pay1 (F := Ideal) v6 p0 p1 p2 p3 p4 p5 p6 p7 v64 v74 v81 (ix4 b k n o)
      = (∑ c : Fin 1024, max ((A c + G b c) + v64 (ix2 (0 : Fin 1) c)) 0 * v74 (ix2 (0 : Fin 1) c))
        + v81 (ix2 (0 : Fin 1) (0 : Fin 1)) := by
  unfold k0_pay1
  refine (addf_apply _ _ _).trans ?_
  refine congrArg₂ (· + ·) ?_ (extract_one v81 _)
  refine (col_cast _ _ b k n o).trans ?_
  refine (lane_sum _ _ _ _ b k n).trans ?_
  refine Finset.sum_congr rfl fun c _ => ?_
  refine (mulf_apply _ _ _).trans ?_
  refine congrArg₂ (· * ·) ?_ (row_bcast v74 _ _ _ b k n c)
  refine (maximumf_apply _ _ _).trans ?_
  refine congrArg₂ max ?_ Ideal.ofBits_zero_f32
  refine (addf_apply _ _ _).trans ?_
  refine congrArg₂ (· + ·) ?_ (row_bcast v64 _ _ _ b k n c)
  refine (addf_apply _ _ _).trans ?_
  refine congrArg₂ (· + ·) (hA c) ?_
  refine (stack_bcast _ _ _ b k n c).trans ?_
  exact concat8_apply p0 p1 p2 p3 p4 p5 p6 p7 _ b k c (fun i => G i c) (h0 c) (h1 c) (h2 c) (h3 c) (h4 c) (h5 c) (h6 c) (h7 c)

/-- Piece c of the stack, as the body computes it from slab c of the q block and the q weights. -/
theorem slab_sum (x1 : Vec Ideal S8x12x1024 .f32) (x3 : Vec Ideal S1024x1024 .bf16) (o : Nat) (i : Fin 8) (hoi : o = i.val)
    (inb : ∀ a, (![o, 0, 0] : Fin 3 → Nat) a + S1x12x1024.size a ≤ S8x12x1024.size a) (k : Fin 12) (c : Fin 1024) :
    ∑ j : Fin 1024, View.ld x1 (Rect.unit (s := S8x12x1024) ![o, 0, 0] S1x12x1024.size inb) (ix3 (0 : Fin 1) k j) * x3 (ix2 j c)
      = ∑ j : Fin 1024, x1 (ix3 i k j) * x3 (ix2 j c) :=
  Finset.sum_congr rfl fun j _ => congrArg (· * x3 (ix2 j c)) (ld_slab x1 o i hoi inb 0 k j)

end Payload

open Payload in
/-- THE STORED VALUE AT AN INDEX: entry (b, k, n) of what the body stores is the sum over the hidden axis h of
    max (v·Wv + q·Wq + bias, 0) times the output weight, plus the output bias, where v·Wv is the sum over j of
    x0 (b, k, n, j) times x2 (j, h) and q·Wq the sum over j of x1 (b, k, j) times x3 (j, h). Of the v block x0 it
    reads row (b, k, n, ·) only. -/
theorem logitsBlock_apply (x0 : Vec Ideal S8x12x8x2048 .f32) (x1 : Vec Ideal S8x12x1024 .f32)
    (x2 : Vec Ideal S2048x1024 .bf16) (x3 : Vec Ideal S1024x1024 .bf16) (x4 x5 : Vec Ideal S1x1024 .f32)
    (x6 : Vec Ideal S1x1 .f32) (b : Fin 8) (k : Fin 12) (n : Fin 8) (o : Fin 1) :
    logitsBlock (F := Ideal) x0 x1 x2 x3 x4 x5 x6 (ix4 b k n o)
      = (∑ h : Fin 1024, max (((∑ j : Fin 2048, x0 (ix4 b k n j) * x2 (ix2 j h))
            + (∑ j : Fin 1024, x1 (ix3 b k j) * x3 (ix2 j h))) + x4 (ix2 (0 : Fin 1) h)) 0 * x5 (ix2 (0 : Fin 1) h))
        + x6 (ix2 (0 : Fin 1) (0 : Fin 1)) := by
  unfold logitsBlock
  rw [ld_rv, ld_rwv, ld_rwq, ld_rrow x4, ld_rrow x5, ld_rone]
  exact pay1_apply _ _ _ _ _ _ _ _ _ x4 x5 x6 b k n o
    (fun c => ∑ j : Fin 2048, x0 (ix4 b k n j) * x2 (ix2 j c))
    (fun i c => ∑ j : Fin 1024, x1 (ix3 i k j) * x3 (ix2 j c))
    (fun c => pay2_apply x0 x2 b k n c)
    (fun c => (piece0_apply _ x3 0 k c).trans (slab_sum x1 x3 0 0 rfl _ k c))
    (fun c => (piece1_apply _ x3 0 k c).trans (slab_sum x1 x3 1 1 rfl _ k c))
    (fun c => (piece2_apply _ x3 0 k c).trans (slab_sum x1 x3 2 2 rfl _ k c))
    (fun c => (piece3_apply _ x3 0 k c).trans (slab_sum x1 x3 3 3 rfl _ k c))
    (fun c => (piece4_apply _ x3 0 k c).trans (slab_sum x1 x3 4 4 rfl _ k c))
    (fun c => (piece5_apply _ x3 0 k c).trans (slab_sum x1 x3 5 5 rfl _ k c))
    (fun c => (piece6_apply _ x3 0 k c).trans (slab_sum x1 x3 6 6 rfl _ k c))
    (fun c => (piece7_apply _ x3 0 k c).trans (slab_sum x1 x3 7 7 rfl _ k c))

end Cert.KernelIdeal.Hand

end
-- ==== Proof.IBodyOb.lean ====
/-
  The body obligation of the idealized kernel: at every grid point, from the buffers holding the windows' blocks,
  the body runs and leaves in the output's buffer, on the rows inside the logits array, the logits' block. The
  blocks are read at an index through the printed index maps (decided once over the forty points); the body's stored
  value at an index is a sum over the hidden axis of products of sums over the feature axes, and entry (b, k, n)
  reads of the v block its row (b, k, n, ·) only, a row inside the array whenever (b, k, n) is.
-/
import proofs.«164039_j46926812676148_1_alg».proof.Proof.IFrame
import proofs.«164039_j46926812676148_1_alg».proof.Proof.IHostPre
import proofs.«164039_j46926812676148_1_alg».proof.Proof.IPayload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open scoped BigOperators

/-! ## The body obligation -/

/-! ### The windows' blocks at an index, in terms of the arrays the region finds -/

/-- The zero offsets of a rank-4 rectangle. -/
theorem hz4 : (![0, 0, 0, 0] : Fin 4 → Nat) = fun _ => 0 := funext fun a => by fin_cases a <;> rfl

/-- The printed index maps and cuts, decided over the grid. -/
theorem grid_facts : ∀ t : Fin cfg0.N,
    win0_7.index t (1 : Fin 4) = 0 ∧ win0_7.index t (3 : Fin 4) = 0
    ∧ win0_0.index t (0 : Fin 4) = win0_7.index t (0 : Fin 4) ∧ win0_0.index t (1 : Fin 4) = 0
    ∧ win0_0.index t (2 : Fin 4) = win0_7.index t (2 : Fin 4) ∧ win0_0.index t (3 : Fin 4) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 4) ≤ 7 ∧ win0_7.index t (2 : Fin 4) ≤ 4
    ∧ win0_7.xsize (grid0.coords t) (0 : Fin 4) = 8 ∧ win0_7.xsize (grid0.coords t) (1 : Fin 4) = 12
    ∧ win0_7.xsize (grid0.coords t) (3 : Fin 4) = 1
    ∧ win0_7.xsize (grid0.coords t) (2 : Fin 4) ≤ 8
    ∧ win0_7.index t (2 : Fin 4) * 8 + win0_7.xsize (grid0.coords t) (2 : Fin 4) ≤ 36
    ∧ win0_0.xsize (grid0.coords t) (0 : Fin 4) = 8 ∧ win0_0.xsize (grid0.coords t) (1 : Fin 4) = 12
    ∧ win0_0.xsize (grid0.coords t) (2 : Fin 4) = win0_7.xsize (grid0.coords t) (2 : Fin 4)
    ∧ win0_0.xsize (grid0.coords t) (3 : Fin 4) = 2048 :=
  (by decide +kernel : ∀ t : Fin grid0.N, _)

/-- Window 2's block at any point is the whole transposed v-weight matrix. -/
theorem iblk2_apply (c : Dev nD) (t : Fin cfg0.N) (j : Fin 2048) (h : Fin 1024) :
    iblk m c 2 t (ix2 j h) = V m c main_v4 (ix2 h (Cert.Spec.colV j)) := by
  obtain ⟨-, -, -, -, -, -, -, -, -, e20, e21, -⟩ := grid_facts t
  show V m c main_v13 (((cfg0.win 2).blk t).view.emb (ix2 j h)) = _
  have he : ((cfg0.win 2).blk t).view.emb (ix2 j h) = ix2 j h := by
    funext a; apply Fin.ext
    match a with
    | ⟨0, _⟩ => show win0_2.index t (0 : Fin 2) * 2048 + 1 * j.val = j.val; rw [e20]; omega
    | ⟨1, _⟩ => show win0_2.index t (1 : Fin 2) * 1024 + 1 * h.val = h.val; rw [e21]; omega
  rw [he]; exact wv_apply m c j h

theorem iblk3_apply (c : Dev nD) (t : Fin cfg0.N) (j : Fin 1024) (h : Fin 1024) :
    iblk m c 3 t (ix2 j h) = V m c main_v4 (ix2 h (Cert.Spec.colQ j)) := by
  obtain ⟨-, -, -, -, -, -, -, -, -, -, -, e30, e31, -⟩ := grid_facts t
  show V m c main_v15 (((cfg0.win 3).blk t).view.emb (ix2 j h)) = _
  have he : ((cfg0.win 3).blk t).view.emb (ix2 j h) = ix2 j h := by
    funext a; apply Fin.ext
    match a with
    | ⟨0, _⟩ => show win0_3.index t (0 : Fin 2) * 1024 + 1 * j.val = j.val; rw [e30]; omega
    | ⟨1, _⟩ => show win0_3.index t (1 : Fin 2) * 1024 + 1 * h.val = h.val; rw [e31]; omega
  rw [he]; exact wq_apply m c j h

theorem iblk4_apply (c : Dev nD) (t : Fin cfg0.N) (h : Fin 1024) :
    iblk m c 4 t (ix2 (0 : Fin 1) h) = V m c main_arg4 (ix1 h) := by
  obtain ⟨-, -, -, -, -, -, -, -, -, -, -, -, -, e40, e41, -⟩ := grid_facts t
  show V m c main_v16 (((cfg0.win 4).blk t).view.emb (ix2 (0 : Fin 1) h)) = _
  have he : ((cfg0.win 4).blk t).view.emb (ix2 (0 : Fin 1) h) = ix2 (0 : Fin 1) h := by
    funext a; apply Fin.ext
    match a with
    | ⟨0, _⟩ => show win0_4.index t (0 : Fin 2) * 1 + 1 * 0 = 0; rw [e40]
    | ⟨1, _⟩ => show win0_4.index t (1 : Fin 2) * 1024 + 1 * h.val = h.val; rw [e41]; omega
  rw [he]; exact b1_apply m c h

theorem iblk5_apply (c : Dev nD) (t : Fin cfg0.N) (h : Fin 1024) :
    iblk m c 5 t (ix2 (0 : Fin 1) h) = V m c main_v9 (ix2 (0 : Fin 1) h) := by
  obtain ⟨-, -, -, -, -, -, -, -, -, -, -, -, -, -, -, e50, e51, -⟩ := grid_facts t
  show V m c main_v9 (((cfg0.win 5).blk t).view.emb (ix2 (0 : Fin 1) h)) = _
  have he : ((cfg0.win 5).blk t).view.emb (ix2 (0 : Fin 1) h) = ix2 (0 : Fin 1) h := by
    funext a; apply Fin.ext
    match a with
    | ⟨0, _⟩ => show win0_5.index t (0 : Fin 2) * 1 + 1 * 0 = 0; rw [e50]
    | ⟨1, _⟩ => show win0_5.index t (1 : Fin 2) * 1024 + 1 * h.val = h.val; rw [e51]; omega
  rw [he]

theorem iblk6_apply (c : Dev nD) (t : Fin cfg0.N) :
    iblk m c 6 t (ix2 (0 : Fin 1) (0 : Fin 1)) = V m c main_arg7 (ix1 (0 : Fin 1)) := by
  obtain ⟨-, -, -, -, -, -, -, -, -, -, -, -, -, -, -, -, -, e60, e61, -⟩ := grid_facts t
  show V m c main_v17 (((cfg0.win 6).blk t).view.emb (ix2 (0 : Fin 1) (0 : Fin 1))) = _
  have he : ((cfg0.win 6).blk t).view.emb (ix2 (0 : Fin 1) (0 : Fin 1)) = ix2 (0 : Fin 1) (0 : Fin 1) := by
    funext a; apply Fin.ext
    match a with
    | ⟨0, _⟩ => show win0_6.index t (0 : Fin 2) * 1 + 1 * 0 = 0; rw [e60]
    | ⟨1, _⟩ => show win0_6.index t (1 : Fin 2) * 1 + 1 * 0 = 0; rw [e61]
  rw [he]; exact b2_apply m c

/-- Window 1's block at a point in grid row `i0` is rows `8 i0 … 8 i0 + 7` of q. -/
theorem iblk1_apply (c : Dev nD) (t : Fin cfg0.N) (b : Fin 8) (k : Fin 12) (j : Fin 1024) (B : Fin 64)
    (hB : B.val = win0_7.index t (0 : Fin 4) * 8 + b.val) :
    iblk m c 1 t (ix3 b k j) = V m c main_arg1 (ix3 B k j) := by
  obtain ⟨-, -, -, -, -, -, e10, e11, e12, -⟩ := grid_facts t
  show V m c main_arg1 (((cfg0.win 1).blk t).view.emb (ix3 b k j)) = _
  have he : ((cfg0.win 1).blk t).view.emb (ix3 b k j) = ix3 B k j := by
    funext a; apply Fin.ext
    match a with
    | ⟨0, _⟩ => show win0_1.index t (0 : Fin 3) * 8 + 1 * b.val = B.val; rw [e10, hB]; omega
    | ⟨1, _⟩ => show win0_1.index t (1 : Fin 3) * 12 + 1 * k.val = k.val; rw [e11]; omega
    | ⟨2, _⟩ => show win0_1.index t (2 : Fin 3) * 1024 + 1 * j.val = j.val; rw [e12]; omega
  rw [he]

/-- The v buffer at a row inside the array, whatever it holds past the array's end, is the array's row. -/
theorem vfill_apply (c : Dev nD) (t : Fin cfg0.N) (d0 : S8x12x8x2048.Idx → Elt Ideal .f32)
    (b : Fin 8) (k : Fin 12) (n : Fin 8) (j : Fin 2048) (B : Fin 64) (N : Fin 36)
    (hn : n.val < win0_7.xsize (grid0.coords t) (2 : Fin 4))
    (hB : B.val = win0_7.index t (0 : Fin 4) * 8 + b.val) (hN : N.val = win0_7.index t (2 : Fin 4) * 8 + n.val) :
    win0_0.fill (grid0.coords t) d0 (vblk m c t) (ix4 b k n j) = V m c main_arg0 (ix4 B k N j) := by
  obtain ⟨-, -, e00, e01, e02, e03, -, -, -, -, -, -, -, -, -, -, -, -, -, -, -, -, -, -, -, -, ys0, ys1, ys2, ys3⟩ := grid_facts t
  have hmoved : win0_0.moved (grid0.coords t) (ix4 b k n j) = true := by
    rw [win0_0.moved_iff]
    intro a
    match a with
    | ⟨0, _⟩ => show b.val < win0_0.xsize (grid0.coords t) (0 : Fin 4); rw [ys0]; exact b.isLt
    | ⟨1, _⟩ => show k.val < win0_0.xsize (grid0.coords t) (1 : Fin 4); rw [ys1]; exact k.isLt
    | ⟨2, _⟩ => show n.val < win0_0.xsize (grid0.coords t) (2 : Fin 4); rw [ys2]; exact hn
    | ⟨3, _⟩ => show j.val < win0_0.xsize (grid0.coords t) (3 : Fin 4); rw [ys3]; exact j.isLt
  unfold Window.fill
  rw [dif_pos hmoved]
  show V m c main_arg0 ((win0_0.blk t).view.emb _) = _
  refine congrArg (V m c main_arg0) (funext fun a => Fin.ext ?_)
  match a with
  | ⟨0, _⟩ => show win0_0.index t (0 : Fin 4) * 8 + 1 * b.val = B.val; rw [e00, hB]; omega
  | ⟨1, _⟩ => show win0_0.index t (1 : Fin 4) * 12 + 1 * k.val = k.val; rw [e01]; omega
  | ⟨2, _⟩ => show win0_0.index t (2 : Fin 4) * 8 + 1 * n.val = N.val; rw [e02, hN]; omega
  | ⟨3, _⟩ => show win0_0.index t (3 : Fin 4) * 2048 + 1 * j.val = j.val; rw [e03]; omega

/-- THE BLOCK OF LOGITS. Whatever the v buffer holds past the array's end (`d0`), the rows of the body's result
    that lie inside the output array are the logits' rows there: an entry depends on the v block only through
    its own row, and that row lies inside the array. -/
theorem block_eq (c : Dev nD) (t : Fin cfg0.N) (d0 : S8x12x8x2048.Idx → Elt Ideal .f32) :
    win0_7.cut (grid0.coords t)
        (outBuf (F := Ideal) (win0_0.fill (grid0.coords t) d0 (vblk m c t)) (iblk m c 1 t) (iblk m c 2 t) (iblk m c 3 t)
          (iblk m c 4 t) (iblk m c 5 t) (iblk m c 6 t))
      = oblk m c t := by
  obtain ⟨e71, e73, -, -, -, -, -, -, -, -, -, -, -, -, -, -, -, -, -, l70, l72, xs0, xs1, xs3, xs2le, xs2in, -⟩ := grid_facts t
  funext y
  have h0 : (y 0).val < win0_7.xsize (grid0.coords t) (0 : Fin 4) := (y 0).isLt
  have h1 : (y 1).val < win0_7.xsize (grid0.coords t) (1 : Fin 4) := (y 1).isLt
  have h2 : (y 2).val < win0_7.xsize (grid0.coords t) (2 : Fin 4) := (y 2).isLt
  have h3 : (y 3).val < win0_7.xsize (grid0.coords t) (3 : Fin 4) := (y 3).isLt
  rw [xs0] at h0; rw [xs1] at h1; rw [xs3] at h3
  have hx : win0_7.xinj (grid0.coords t) y
      = ix4 (⟨(y 0).val, h0⟩ : Fin 8) (⟨(y 1).val, h1⟩ : Fin 12) (⟨(y 2).val, by omega⟩ : Fin 8) (⟨(y 3).val, h3⟩ : Fin 1) :=
    funext fun a => Fin.ext (by match a with | ⟨0, _⟩ => rfl | ⟨1, _⟩ => rfl | ⟨2, _⟩ => rfl | ⟨3, _⟩ => rfl)
  have hI : (win0_7.blk t).view.emb y
      = ix4 (⟨win0_7.index t (0 : Fin 4) * 8 + (y 0).val, by omega⟩ : Fin 64) (⟨(y 1).val, h1⟩ : Fin 12)
          (⟨win0_7.index t (2 : Fin 4) * 8 + (y 2).val, by omega⟩ : Fin 36) (⟨(y 3).val, h3⟩ : Fin 1) := by
    funext a; apply Fin.ext
    match a with
    | ⟨0, _⟩ => show win0_7.index t (0 : Fin 4) * 8 + 1 * (y 0).val = win0_7.index t (0 : Fin 4) * 8 + (y 0).val; omega
    | ⟨1, _⟩ => show win0_7.index t (1 : Fin 4) * 12 + 1 * (y 1).val = (y 1).val; rw [e71]; omega
    | ⟨2, _⟩ => show win0_7.index t (2 : Fin 4) * 8 + 1 * (y 2).val = win0_7.index t (2 : Fin 4) * 8 + (y 2).val; omega
    | ⟨3, _⟩ => show win0_7.index t (3 : Fin 4) * 1 + 1 * (y 3).val = (y 3).val; rw [e73]; omega
  show outBuf (F := Ideal) (win0_0.fill (grid0.coords t) d0 (vblk m c t)) (iblk m c 1 t) (iblk m c 2 t) (iblk m c 3 t)
          (iblk m c 4 t) (iblk m c 5 t) (iblk m c 6 t) (win0_7.xinj (grid0.coords t) y) = G m c ((win0_7.blk t).view.emb y)
  rw [hx, hI]
  unfold outBuf
  rw [View.canon_unit_zero hz4, logitsBlock_apply]
  unfold G
  rw [Cert.Spec.logits_apply]
  unfold Cert.Spec.logitAt
  refine congrArg₂ (· + ·) (Finset.sum_congr rfl fun h _ => ?_) (iblk6_apply m c t)
  refine congrArg₂ (· * ·) (congrArg (max · 0) (congrArg₂ (· + ·) (congrArg₂ (· + ·)
    (Finset.sum_congr rfl fun j _ => ?_) (Finset.sum_congr rfl fun j _ => ?_)) (iblk4_apply m c t h))) (iblk5_apply m c t h)
  · exact congrArg₂ (· * ·) (vfill_apply m c t d0 _ _ _ j _ _ h2 rfl rfl) (iblk2_apply m c t j h)
  · exact congrArg₂ (· * ·) (iblk1_apply m c t _ _ j _ rfl) (iblk3_apply m c t j h)

/-- What the body is called with at point `t`: the invariant, the core's tallies and every window's current buffer
    at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns: the two windows cut at the array's end stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare
        (win0_7.fill (grid0.coords t) d (win0_7.cut (grid0.coords t) ((dats m 0 c).after 7 t)))))

set_option maxHeartbeats 1000000 in
/-- The body at any point: the inputs' buffers hold their blocks, so the body runs (`sound_kernel`); what it
    leaves in the output's buffer agrees with the logits' block on the rows inside the array (`block_eq`), which is
    all that is stated of a window cut at the array's end; the invariant and the tallies pass through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel (F := Ideal) c Set.univ (grid0.coords t) _ _ _ _ _ _ _ _ _ _ _ _ _ _ _ _
    (win0_0.fill (grid0.coords t) d0 (vblk m c t)) (iblk m c 1 t) (iblk m c 2 t) (iblk m c 3 t) (iblk m c 4 t)
    (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    rw [show win0_0.cut (grid0.coords t) (vbuf m c t) = vblk m c t from win0_0.cut_fill _ _ _]
    iexact H0
  isplitl [H1]; · iexact H1
  isplitl [H2]; · iexact H2
  isplitl [H3]; · iexact H3
  isplitl [H4]; · iexact H4
  isplitl [H5]; · iexact H5
  isplitl [H6]; · iexact H6
  iexists (outBuf (F := Ideal) (win0_0.fill (grid0.coords t) d0 (vblk m c t)) (iblk m c 1 t) (iblk m c 2 t) (iblk m c 3 t)
          (iblk m c 4 t) (iblk m c 5 t) (iblk m c 6 t))
  rw [show win0_7.cut (grid0.coords t) (obuf m c t) = oblk m c t from win0_7.cut_fill _ _ _,
    ← block_eq m c t d0, win0_7.fill_cut]
  iexact H7

/-- The library's body obligation, at every point. -/
theorem body_obligation (c : Dev nD) :
    BodyObligationLoose (dats m 0 c) (defs₀ (F := Ideal)) Variants.none () Set.univ := fun t => by
  rw [bigSep_W0, bigSep_W0]
  exact sound_body m c t

end Cert.KernelIdeal.Hand

end
-- ==== Proof.IRun.lean ====
/- The idealized kernel's run read back, under its body obligation: the logits array the region leaves, the softmax
   the later host lines compute from it, and the run's post at the result and at the eight arguments. -/
import proofs.«164039_j46926812676148_1_alg».proof.Proof.IHostPre
import Idealize.ShloMosaic.Lib.StableHlo.Run
import Idealize.ShloMosaic.Lib.Pipeline.Value
import Idealize.ShloMosaic.Lib.Pipeline.FrameSuffix
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.StableHlo
open scoped BigOperators

variable (m : (ℓ : Loc nD τ sig) → Buf (Elt Ideal) ℓ) (ρ : Dev nD → PrngReg)

/-! ## What the region leaves in the logits array -/

/-- What point `t` writes back is block `t` of the logits: the part of the output's buffer the write-back moves is the
    part of the logits' block inside the array. -/
theorem flushed_7 (c : Dev nD) (t : Fin cfg0.N) :
    (dats m 0 c).flushed 7 t = ((cfg0.win 7).blk t).view.read (Elt Ideal) (G m c) := by
  show (cfg0.win 7).cut (grid0.coords t) ((dats m 0 c).after 7 t) = _
  rw [after_7]
  exact win0_7.cut_fill _ _ _

/-- The output window's blocks over the grid, in closed form: point `t` is batch block `t / 5`, object block `t % 5`;
    a block is 8 × 12 × 8 × 1 but for the last object block, cut to the 4 objects left of 36. -/
theorem idx_facts7 : ∀ t : Fin cfg0.N,
    win0_7.index t (0 : Fin 4) = t.val / 5 ∧ win0_7.index t (1 : Fin 4) = 0
    ∧ win0_7.index t (2 : Fin 4) = t.val % 5 ∧ win0_7.index t (3 : Fin 4) = 0
    ∧ win0_7.xsize (grid0.coords t) (0 : Fin 4) = 8 ∧ win0_7.xsize (grid0.coords t) (1 : Fin 4) = 12
    ∧ win0_7.xsize (grid0.coords t) (2 : Fin 4) = min 8 (36 - t.val % 5 * 8) ∧ win0_7.xsize (grid0.coords t) (3 : Fin 4) = 1 :=
  (by decide +kernel : ∀ t : Fin grid0.N, _)

/-- An index of the logits array is in point `t`'s block iff each coordinate is in the block's range on its axis. -/
theorem mem_blk7 (t : Fin cfg0.N) (i : S64x12x36x1.Idx) :
    i ∈ ((cfg0.win 7).blk t).view.set ↔ ∀ a : Fin 4, win0_7.index t a * S8x12x8x1.size a ≤ (i a).val
      ∧ (i a).val < win0_7.index t a * S8x12x8x1.size a + win0_7.xsize (grid0.coords t) a := by
  show i ∈ ((View.whole main_v18).slice (win0_7.rect t)).set ↔ _
  rw [View.set_slice_whole, Rect.mem_set_unit]
  exact Iff.rfl

/-- The forty blocks cover the logits array: index `(b, k, n, 0)` is in the block of batch block `b / 8` and object
    block `n / 8`, and every point writes back. -/
theorem cover_7 (i : S64x12x36x1.Idx) : ∃ t : Fin cfg0.N, (cfg0.win 7).flush t = true ∧ i ∈ ((cfg0.win 7).blk t).view.set := by
  have h0 : (i 0).val < 64 := (i 0).isLt
  have h1 : (i 1).val < 12 := (i 1).isLt
  have h2 : (i 2).val < 36 := (i 2).isLt
  have h3 : (i 3).val < 1 := (i 3).isLt
  have hN : (i 0).val / 8 * 5 + (i 2).val / 8 < cfg0.N := by
    show _ < grid0.N
    rw [N_0]; omega
  refine ⟨⟨(i 0).val / 8 * 5 + (i 2).val / 8, hN⟩, flush0_7 _, ?_⟩
  rw [mem_blk7]
  obtain ⟨e0, e1, e2, e3, x0, x1, x2, x3⟩ := idx_facts7 ⟨(i 0).val / 8 * 5 + (i 2).val / 8, hN⟩
  intro a
  match a with
  | ⟨0, _⟩ =>
    show win0_7.index _ (0 : Fin 4) * 8 ≤ (i 0).val ∧ (i 0).val < win0_7.index _ (0 : Fin 4) * 8 + win0_7.xsize _ (0 : Fin 4)
    rw [e0, x0]; show ((i 0).val / 8 * 5 + (i 2).val / 8) / 5 * 8 ≤ (i 0).val ∧ (i 0).val < ((i 0).val / 8 * 5 + (i 2).val / 8) / 5 * 8 + 8
    omega
  | ⟨1, _⟩ =>
    show win0_7.index _ (1 : Fin 4) * 12 ≤ (i 1).val ∧ (i 1).val < win0_7.index _ (1 : Fin 4) * 12 + win0_7.xsize _ (1 : Fin 4)
    rw [e1, x1]; omega
  | ⟨2, _⟩ =>
    show win0_7.index _ (2 : Fin 4) * 8 ≤ (i 2).val ∧ (i 2).val < win0_7.index _ (2 : Fin 4) * 8 + win0_7.xsize _ (2 : Fin 4)
    rw [e2, x2]
    show ((i 0).val / 8 * 5 + (i 2).val / 8) % 5 * 8 ≤ (i 2).val
      ∧ (i 2).val < ((i 0).val / 8 * 5 + (i 2).val / 8) % 5 * 8 + min 8 (36 - ((i 0).val / 8 * 5 + (i 2).val / 8) % 5 * 8)
    omega
  | ⟨3, _⟩ =>
    show win0_7.index _ (3 : Fin 4) * 1 ≤ (i 3).val ∧ (i 3).val < win0_7.index _ (3 : Fin 4) * 1 + win0_7.xsize _ (3 : Fin 4)
    rw [e3, x3]; omega

/-- The logits array after the region: the logits, whole. -/
theorem final_7 (c : Dev nD) : (dats m 0 c).arrAt 7 cfg0.N = G m c :=
  (dats m 0 c).arrAt_eq_of_cover 7 (G m c) (fun t _ => flushed_7 m c t) cover_7

/-! ## The host lines after the region -/

/-- The softmax over the glimpse axis that the later host lines compute from the logits `L`: with `mx` the maximum over
    the glimpses (clamped below by `-∞`), `exp (L - mx)` divided by its sum over the glimpses. -/
def tailK (L : FVec Ideal S64x12x36x1 .f32) : FVec Ideal S64x12x36x1 .f32 :=
  let mx : FVec Ideal S64x36x1 .f32 :=
    maximumf (broadcastInDim S64x36x1 ![] bcast_S_S64x36x1 (constant (F := Ideal) S_ .f32 0xFF800000#32))
      (Host.reduce (FloatOps.maximumf (F := Ideal)) L (constant (F := Ideal) S_ .f32 0xFF800000#32) reducesTo_S64x12x36x1_S64x36x1_d1 h_S_)
  let e : FVec Ideal S64x12x36x1 .f32 :=
    Host.exp (F := Ideal) (subf L (broadcastInDim S64x12x36x1 ![0, 1, 2, 3] bcast_S64x1x36x1_S64x12x36x1_0_1_2_3
      (broadcastInDim S64x1x36x1 ![0, 2, 3] bcast_S64x36x1_S64x1x36x1_0_2_3 mx)))
  Host.divf (F := Ideal) e (broadcastInDim S64x12x36x1 ![0, 1, 2, 3] bcast_S64x1x36x1_S64x12x36x1_0_1_2_3
    (broadcastInDim S64x1x36x1 ![0, 2, 3] bcast_S64x36x1_S64x1x36x1_0_2_3
      (Host.reduceAdd (F := Ideal) e (constant (F := Ideal) S_ .f32 0x00000000#32) reducesTo_S64x12x36x1_S64x36x1_d1 h_S_)))

set_option maxHeartbeats 2000000 in
/-- The result buffer after the later host lines is the softmax of the logits: the lines read the logits array, which
    the region left holding the logits (`final_7`), and no other buffer the region wrote. -/
theorem tail_eq (c : Dev nD) : Pipeline.afterTail₀ cfgs (dats m) 0 (V0 m) [hostOps1] c main_v29 = tailK (G m c) := by
  unfold Pipeline.afterTail₀
  show StableHlo.after hostOps1 _ (Proc.devRef .tc main_v29) = _
  after_results
  exact congrArg tailK ((Pipeline.withArrays_arr spec0 launch0.win.arr_inj c _ _ 7).trans (final_7 m c))

/-! ## The run -/

/-- The logits as a function of the arguments: the arrays the region finds are the arguments as launched (no host line
    before the region writes them) and the two normalised weight arrays. -/
theorem G_eq (c : Dev nD) : G m c = Cert.Spec.logits (m ((c.tc : Thread nD τ).loc main_arg0)) (m ((c.tc : Thread nD τ).loc main_arg1))
    (W1n (m ((c.tc : Thread nD τ).loc main_arg2)) (m ((c.tc : Thread nD τ).loc main_arg3))) (m ((c.tc : Thread nD τ).loc main_arg4))
    (W2n (m ((c.tc : Thread nD τ).loc main_arg5)) (m ((c.tc : Thread nD τ).loc main_arg6))) (m ((c.tc : Thread nD τ).loc main_arg7)) := by
  unfold G
  rw [V_main_arg0 m c, V_main_arg1 m c, V_v4 m c, V_main_arg4 m c, V_v9 m c, V_main_arg7 m c]

set_option backward.isDefEq.respectTransparency.types false in
/-- Under the body obligation: every weakly fair execution of @main on the TensorCores terminates, and every final state
    has every array of the pipeline at what the proof data computes and every other unscoped buffer as the later host
    lines leave it. -/
theorem run_main (hbody : ∀ c, BodyObligationLoose (dats m 0 c) (defs₀ (F := Ideal)) Variants.none () Set.univ) :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := hbody) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE KERNEL'S RUN, under the body obligation: the result buffer ends holding the softmax of the logits of the arguments
    (the weights normalised), and the eight argument arrays end as launched. -/
theorem kernel_run (hbody : ∀ c, BodyObligationLoose (dats m 0 c) (defs₀ (F := Ideal)) Variants.none () Set.univ) :
    θ_run defs (onTc (τ := τ) (main (F := Ideal))) ⟨m, fun _ => 0, ρ⟩ (fun r => ∀ c : Dev nD,
      r.2.mem ((c.tc : Thread nD τ).loc main_v29)
        = tailK (Cert.Spec.logits (m ((c.tc : Thread nD τ).loc main_arg0)) (m ((c.tc : Thread nD τ).loc main_arg1))
            (W1n (m ((c.tc : Thread nD τ).loc main_arg2)) (m ((c.tc : Thread nD τ).loc main_arg3))) (m ((c.tc : Thread nD τ).loc main_arg4))
            (W2n (m ((c.tc : Thread nD τ).loc main_arg5)) (m ((c.tc : Thread nD τ).loc main_arg6))) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).2 main_v29 (Pipeline.mem_restRefs_of main_v29 (by decide) (by decide))).trans
        ((tail_eq m c).trans (congrArg tailK (G_eq m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ hbody)

/-- The frame of the idealized kernel, under the body obligation: the eight argument arrays end as launched. -/
theorem frame_ki (hbody : ∀ c, BodyObligationLoose (dats m 0 c) (defs₀ (F := Ideal)) Variants.none () Set.univ) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ hbody)

end Cert.KernelIdeal.Hand

end
-- ==== Proof.RefValue.lean ====
/-
  The reference program at the ideal instance (floats are extended reals, every operation exact), read as mathematics.

  * `logits_eq`: the array the reference holds before its softmax is the specification `Cert.Spec.logits` of the
    arguments `v`, `q`, `b1`, `b2` and of the two normalised weight arrays `W1e = g1 · W1 / ‖W1‖` and
    `W2e = g2 · W2 / ‖W2‖`, which stay closed terms: entry `[b, k, n, 0]` is
    `∑ h, max (v[b,k,n,:] · W1e[h, :2048] + q[b,k,:] · W1e[h, 2048:] + b1[h]) 0 * W2e[0, h] + b2[0]`. Read index by
    index: a slice reads a shifted column, a broadcast forgets a coordinate, a `dot_general` is the sum over its one
    contracted axis, and the clamp is a maximum with the zero array.
  * `tail` / `result_eq`: the rest of the reference is a softmax along the glimpse axis, one function of the logits;
    the reference's result is that function applied to its logits.
  * `frame_ri`: the reference leaves its arguments unchanged.
-/
import proofs.«164039_j46926812676148_1_alg».proof.Defs
import proofs.«164039_j46926812676148_1_alg».proof.Proof.Gen.ReferenceIdeal.Read
import proofs.«164039_j46926812676148_1_alg».proof.Proof.Gen.Pre_finite_inputs
import proofs.«164039_j46926812676148_1_alg».proof.Proof.Spec
import Idealize.ShloMosaic.PureOps.Ideal.Laws
import Idealize.ShloMosaic.Lib.ValueIdx

noncomputable section

open scoped BigOperators

namespace Cert.ReferenceIdeal.Hand

open Cert.ReferenceIdeal Cert.ReferenceIdeal.Gen Cert.ReferenceIdeal.Read Idealize.ShloMosaic Idealize.ShloMosaic.ValueIdx
open Idealize.SL.Sem

/-! ## The logits, index by index -/

/-- The hidden unit `h`'s share of the glimpse features: `v[b, k, n, :] · W[h, :2048]`, where `W` is the first layer's
    normalised weight matrix (the value of `%4`, kept closed) and the slice `[:, :2048]` reads column `j` at `colV j`. -/
theorem hv_apply (x0 : FVec Ideal S64x12x36x2048 .f32) (x2 : FVec Ideal S1024x3072 .f32) (x3 : FVec Ideal S_ .f32)
    (b : Fin 64) (k : Fin 12) (n : Fin 36) (h : Fin 1024) :
    val_main_v12 (F := Ideal) x0 x2 x3 (ix4 b k n h)
      = ∑ j : Fin 2048, x0 (ix4 b k n j) * val_main_v4 (F := Ideal) x2 x3 (ix2 h (Cert.Spec.colV j)) := by
  rw [val_main_v12_apply]
  refine Finset.sum_congr rfl fun j _ => ?_
  rw [val_main_v10_apply]
  have e1 : lidx_main_v12 (ix4 b k n h) j = ix4 b k n j :=
    funext fun a => Fin.ext (by match a with | ⟨0, _⟩ => rfl | ⟨1, _⟩ => rfl | ⟨2, _⟩ => rfl | ⟨3, _⟩ => rfl)
  have e2 : idx_main_v10 (ridx_main_v12 (ix4 b k n h) j) = ix2 h (Cert.Spec.colV j) :=
    funext fun a => Fin.ext (by match a with | ⟨0, _⟩ => rfl | ⟨1, _⟩ => rfl)
  rw [e1, e2]

/-- The hidden unit `h`'s share of the query: `q[b, k, :] · W[h, 2048:]`, broadcast along the object axis `n`; the slice
    `[:, 2048:]` reads column `j` at `colQ j`. -/
theorem hq_apply (x1 : FVec Ideal S64x12x1024 .f32) (x2 : FVec Ideal S1024x3072 .f32) (x3 : FVec Ideal S_ .f32)
    (b : Fin 64) (k : Fin 12) (n : Fin 36) (h : Fin 1024) :
    val_main_v15 (F := Ideal) x1 x2 x3 (ix4 b k n h)
      = ∑ j : Fin 1024, x1 (ix3 b k j) * val_main_v4 (F := Ideal) x2 x3 (ix2 h (Cert.Spec.colQ j)) := by
  rw [val_main_v15_apply, val_main_v14_apply, val_main_v13_apply]
  refine Finset.sum_congr rfl fun j _ => ?_
  rw [val_main_v11_apply]
  have e1 : lidx_main_v13 (idx_main_v14 (idx_main_v15 (ix4 b k n h))) j = ix3 b k j :=
    funext fun a => Fin.ext (by match a with | ⟨0, _⟩ => rfl | ⟨1, _⟩ => rfl | ⟨2, _⟩ => rfl)
  have e2 : idx_main_v11 (ridx_main_v13 (idx_main_v14 (idx_main_v15 (ix4 b k n h))) j) = ix2 h (Cert.Spec.colQ j) :=
    funext fun a => Fin.ext (by match a with | ⟨0, _⟩ => rfl | ⟨1, _⟩ => rfl)
  rw [e1, e2]

/-- The first layer's bias, broadcast along batch, glimpse and object: `b1[h]`. -/
theorem b1_apply (x4 : FVec Ideal S1024 .f32) (b : Fin 64) (k : Fin 12) (n : Fin 36) (h : Fin 1024) :
    val_main_v18 (F := Ideal) x4 (ix4 b k n h) = x4 (ix1 h) := by
  rw [val_main_v18_apply, val_main_v17_apply]
  exact congrArg x4 (funext fun a => Fin.ext (by match a with | ⟨0, _⟩ => rfl))

/-- The array the hidden layer is clamped against is the extended real `0` everywhere. -/
theorem zero_apply (i : S64x12x36x1024.Idx) : val_main_call2_v0 (F := Ideal) i = 0 := by
  rw [val_main_call2_v0_apply, val_main_call2_cst_apply]
  exact Ideal.ofBits_zero_f32

/-- The hidden layer at `[b, k, n, h]`: the two products plus the bias, clamped below at zero. -/
theorem hidden_apply (x0 : FVec Ideal S64x12x36x2048 .f32) (x1 : FVec Ideal S64x12x1024 .f32)
    (x2 : FVec Ideal S1024x3072 .f32) (x3 : FVec Ideal S_ .f32) (x4 : FVec Ideal S1024 .f32)
    (b : Fin 64) (k : Fin 12) (n : Fin 36) (h : Fin 1024) :
    val_main_v20 (F := Ideal) x0 x1 x2 x3 x4 (ix4 b k n h)
      = max (((∑ j : Fin 2048, x0 (ix4 b k n j) * val_main_v4 (F := Ideal) x2 x3 (ix2 h (Cert.Spec.colV j)))
              + (∑ j : Fin 1024, x1 (ix3 b k j) * val_main_v4 (F := Ideal) x2 x3 (ix2 h (Cert.Spec.colQ j))))
             + x4 (ix1 h)) 0 := by
  rw [val_main_v20_apply, val_main_v19_apply, val_main_v16_apply, hv_apply, hq_apply, b1_apply, zero_apply]
  generalize val_main_v4 (F := Ideal) x2 x3 = W
  rfl

/-- The reference's logits (the value of `%24`) are the specification's, of the arguments `v`, `q`, `b1`, `b2` and the
    two normalised weight arrays (the values of `%4` and `%9`, kept closed): the second product contracts the hidden
    axis, and the second bias is broadcast to every entry. -/
theorem logits_eq (x0 : FVec Ideal S64x12x36x2048 .f32) (x1 : FVec Ideal S64x12x1024 .f32) (x2 : FVec Ideal S1024x3072 .f32)
    (x3 : FVec Ideal S_ .f32) (x4 : FVec Ideal S1024 .f32) (x5 : FVec Ideal S1x1024 .f32) (x6 : FVec Ideal S_ .f32)
    (x7 : FVec Ideal S1 .f32) :
    val_main_v24 (F := Ideal) x0 x1 x2 x3 x4 x5 x6 x7
      = Cert.Spec.logits x0 x1 (val_main_v4 (F := Ideal) x2 x3) x4 (val_main_v9 (F := Ideal) x5 x6) x7 := by
  funext i
  obtain ⟨b, k, n, o, rfl⟩ : ∃ (b : Fin 64) (k : Fin 12) (n : Fin 36) (o : Fin 1), i = ix4 b k n o :=
    ⟨i 0, i 1, i 2, i 3, eq_ix4 i⟩
  obtain rfl : o = 0 := Subsingleton.elim _ _
  rw [Cert.Spec.logits_apply]
  unfold Cert.Spec.logitAt
  rw [val_main_v24_apply, val_main_v21_apply, val_main_v23_apply, val_main_v22_apply]
  generalize val_main_v9 (F := Ideal) x5 x6 = w2
  refine congrArg₂ (· + ·) (Finset.sum_congr rfl fun h _ => ?_) ?_
  · have e1 : lidx_main_v21 (ix4 b k n (0 : Fin 1)) h = ix4 b k n h :=
      funext fun a => Fin.ext (by match a with | ⟨0, _⟩ => rfl | ⟨1, _⟩ => rfl | ⟨2, _⟩ => rfl | ⟨3, _⟩ => rfl)
    have e2 : ridx_main_v21 (ix4 b k n (0 : Fin 1)) h = ix2 (0 : Fin 1) h :=
      funext fun a => Fin.ext (by match a with | ⟨0, _⟩ => rfl | ⟨1, _⟩ => rfl)
    rw [e1, e2, hidden_apply]
  · exact congrArg x7 (funext fun a => Fin.ext (by match a with | ⟨0, _⟩ => rfl))

/-! ## The softmax over the glimpse axis, as one function of the logits -/

/-- The reference's last twelve operations as a function of the logits `L` (an array `[64, 12, 36, 1]`): with
    `mx[b, n, 0] = max (-∞) (max over k of L[b, k, n, 0])` and `e = exp (L - mx)` (the maximum broadcast back along the
    glimpse axis `k`), the result is `e / (0 + ∑ over k of e)`, the sum broadcast back the same way: a softmax along
    axis 1. -/
def tail (L : FVec Ideal S64x12x36x1 .f32) : FVec Ideal S64x12x36x1 .f32 :=
  let mx : FVec Ideal S64x36x1 .f32 :=
    maximumf (broadcastInDim S64x36x1 ![] bcast_S_S64x36x1 (constant (F := Ideal) S_ .f32 0xFF800000#32))
      (Host.reduce FloatOps.maximumf L (constant (F := Ideal) S_ .f32 0xFF800000#32) reducesTo_S64x12x36x1_S64x36x1_d1 h_S_)
  let e : FVec Ideal S64x12x36x1 .f32 :=
    Host.exp (subf L (broadcastInDim S64x12x36x1 ![0, 1, 2, 3] bcast_S64x1x36x1_S64x12x36x1_0_1_2_3
      (broadcastInDim S64x1x36x1 ![0, 2, 3] bcast_S64x36x1_S64x1x36x1_0_2_3 mx)))
  Host.divf e (broadcastInDim S64x12x36x1 ![0, 1, 2, 3] bcast_S64x1x36x1_S64x12x36x1_0_1_2_3
    (broadcastInDim S64x1x36x1 ![0, 2, 3] bcast_S64x36x1_S64x1x36x1_0_2_3
      (Host.reduceAdd e (constant (F := Ideal) S_ .f32 0x00000000#32) reducesTo_S64x12x36x1_S64x36x1_d1 h_S_)))

/-- The reference's result is the softmax chain `tail` applied to its logits (the value of `%24`): the last twelve
    operations read nothing else. -/
theorem result_eq (x0 : FVec Ideal S64x12x36x2048 .f32) (x1 : FVec Ideal S64x12x1024 .f32) (x2 : FVec Ideal S1024x3072 .f32)
    (x3 : FVec Ideal S_ .f32) (x4 : FVec Ideal S1024 .f32) (x5 : FVec Ideal S1x1024 .f32) (x6 : FVec Ideal S_ .f32)
    (x7 : FVec Ideal S1 .f32) :
    val_main_v35 (F := Ideal) x0 x1 x2 x3 x4 x5 x6 x7 = tail (val_main_v24 (F := Ideal) x0 x1 x2 x3 x4 x5 x6 x7) := by
  unfold val_main_v35 val_main_v34 val_main_v33 val_main_v32 val_main_v31 val_main_v30 val_main_v29 val_main_v28
    val_main_v27 val_main_v26 val_main_v25 val_main_cst val_main_cst_0 val_main_cst_1 tail
  rfl

/-! ## The reference's frame -/

/-- The reference leaves its arguments as it found them: its run with the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.Hand

end
-- ==== Proof.lean ====
/-
  The certificate of one attention-logit kernel against its jnp reference, on the extended reals.

  Both programs normalise the two weight matrices on the host (`W1e = g1 · W1 / ‖W1‖`, `W2e = g2 · W2 / ‖W2‖`), compute
  for every batch `b`, glimpse `k` and object `n` the logit
  `∑ h, max (v[b,k,n,:] · W1e[h, :2048] + q[b,k,:] · W1e[h, 2048:] + b1[h]) 0 * W2e[0, h] + b2[0]`
  (`Cert.Spec.logits`), and end with the same softmax along the glimpse axis. The kernel computes the logits block by
  block over an 8 × 5 grid: a block of 8 batches × 12 glimpses × 8 objects, the v block flattened to 768 rows and
  multiplied by the transposed weights, the q block multiplied batch by batch. The object axis has 36 entries, so the
  last column of blocks overhangs the array by four rows: whatever the staging buffer holds there, a row of the
  product depends on its own row of the v block only, so the rows written back are the logits' rows
  (`Cert.KernelIdeal.Hand.block_eq`). The reference contracts the same axes in one `dot_general` each; on the extended
  reals a product into a zero accumulator, a lane sum from zero and a `dot_general` are the same finite sums, and a
  change of float format is the identity. Neither side needs the inputs finite: no law beyond reindexing a sum is used.

  The word-level kernel's frame forgets every buffer's contents (the frame states nothing of them); the idealized
  kernel's run names them, and gives both its frame and its half of the equivalence.
-/
import proofs.«164039_j46926812676148_1_alg».proof.Defs
import proofs.«164039_j46926812676148_1_alg».proof.Proof.Gen.Kernel
import proofs.«164039_j46926812676148_1_alg».proof.Proof.Gen.KernelIdeal
import proofs.«164039_j46926812676148_1_alg».proof.Proof.Gen.ReferenceIdeal
import proofs.«164039_j46926812676148_1_alg».proof.Proof.Gen.Pre_finite_inputs
import proofs.«164039_j46926812676148_1_alg».proof.Proof.KFrame
import proofs.«164039_j46926812676148_1_alg».proof.Proof.IBodyOb
import proofs.«164039_j46926812676148_1_alg».proof.Proof.IRun
import proofs.«164039_j46926812676148_1_alg».proof.Proof.RefValue

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel: its run with every array named, read at the arguments. -/
theorem frame_ki : Cert.frame_KernelIdeal (hKernelIdeal := Cert.KernelIdeal.Gen.facts) (hPre_finite_inputs := Cert.Pre_finite_inputs.Gen.facts) :=
  fun m ρ _ => Cert.KernelIdeal.Hand.frame_ki m ρ (Cert.KernelIdeal.Hand.body_obligation m)

/-- The two programs end with the same softmax along the glimpse axis: one function of the logits. -/
theorem tail_eq (L : FVec Ideal Cert.KernelIdeal.S64x12x36x1 .f32) :
    Cert.KernelIdeal.Hand.tailK L = Cert.ReferenceIdeal.Hand.tail L := rfl

/-- The two programs normalise the first layer's weights by the same operations. -/
theorem W1n_eq (x2 : FVec Ideal Cert.KernelIdeal.S1024x3072 .f32) (x3 : FVec Ideal Cert.KernelIdeal.S_ .f32) :
    Cert.ReferenceIdeal.Read.val_main_v4 (F := Ideal) x2 x3 = Cert.KernelIdeal.Hand.W1n x2 x3 := by
  unfold Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_call0_v1
    Cert.ReferenceIdeal.Read.val_main_call0_v0 Cert.ReferenceIdeal.Read.val_main_call0_cst Cert.KernelIdeal.Hand.W1n
  rfl

/-- And the second layer's. -/
theorem W2n_eq (x5 : FVec Ideal Cert.KernelIdeal.S1x1024 .f32) (x6 : FVec Ideal Cert.KernelIdeal.S_ .f32) :
    Cert.ReferenceIdeal.Read.val_main_v9 (F := Ideal) x5 x6 = Cert.KernelIdeal.Hand.W2n x5 x6 := by
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_call1_v1
    Cert.ReferenceIdeal.Read.val_main_call1_v0 Cert.ReferenceIdeal.Read.val_main_call1_cst Cert.KernelIdeal.Hand.W2n
  rfl

/-- From memories that agree on the arguments both idealized programs end with the softmax of the same logits. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.kernel_run m ρ (Cert.KernelIdeal.Hand.body_obligation m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Hand.result_eq, Cert.ReferenceIdeal.Hand.logits_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2, W1n_eq, W2n_eq]
  exact (tail_eq _).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.Hand.frame_ri, trivial, algebraic⟩

end Cert.Proof

end
